-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S5000x16 : Shape := ⟨2, ![5000, 16]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 87
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S100000x40, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x40, .f32⟩
  | .hbm, ⟨76, _⟩ => ⟨S3300000x1, .f32⟩
  | .hbm, ⟨77, _⟩ => ⟨S3300000x40, .f32⟩
  | .hbm, ⟨78, _⟩ => ⟨S3300000x40, .f32⟩
  | .hbm, ⟨79, _⟩ => ⟨S_, .f32⟩
  | .hbm, ⟨80, _⟩ => ⟨S100000x40, .f32⟩
  | .hbm, ⟨81, _⟩ => ⟨S3300000x1, .i32⟩
  | .hbm, ⟨82, _⟩ => ⟨S100000x40, .f32⟩
  | .hbm, ⟨83, _⟩ => ⟨S1x40, .f32⟩
  | .hbm, ⟨84, _⟩ => ⟨S100000x40, .f32⟩
  | .hbm, ⟨85, _⟩ => ⟨S100000x40, .f32⟩
  | .hbm, ⟨86, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S5000x16, .f32⟩
  | .local _ .vmem, ⟨6, _⟩ => ⟨S5000x16, .f32⟩
  | .local _ .vmem, ⟨7, _⟩ => ⟨S16x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The kernel program's run with its final memory named.

  The program is three kernel regions among stretches of host operations. Its buffer contents at each boundary are a
  fold from the launch memory: a stretch of host operations applies them in order, a region replaces its output array
  by what its grid points write back and leaves every other buffer as it was. Here the run is stated with the WHOLE
  final memory read against the last fold `W8`: every weakly fair execution terminates, nothing faulting, and every
  buffer that lives for the whole program holds the last boundary's contents. The result array and the argument
  arrays are instances.
-/
import proofs.«105727_j40063454937538_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every program-long buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result array and the six argument arrays read off the final memory: the result at the last
    boundary's contents, each argument as launched (no host operation and no region writes one). -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_all m ρ)

end Cert.KernelIdeal.RunValue

end
-- ==== Proof.LibAfterAppend.lean ====
/-
  The fold of host operations over two lines set end to end.

  `StableHlo.after ops V` is the device's buffer contents after the operations `ops`, in order, from contents `V`. Over
  a concatenation it is the fold over the second line of the fold over the first — for any signature and any type of
  values. With it a long line that is given as several stretches (`List.flatten [s₀, s₁, …]`, after
  `List.flatten_cons` a chain of `++`) is read one stretch at a time: each stretch from ANY contents of which the
  buffers it reads are known, so that no comparison is longer than a stretch.
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons]; exact ih _

end Idealize.ShloMosaic.StableHlo
-- ==== Proof.LibTypedRef.lean ====
/-
  Round trips through a typed reference.

  A typed reference to a tensor value's buffer carries a proof that the buffer's type is the value's type, and a
  called function's operations move contents between the two types along that proof: to the buffer's type when they
  write, back to the value's type when they read. The two moves are inverse to each other, whatever the reference and
  whatever the contents, because along the proof the two types are one type. Stated for ANY typed reference and proved
  by substituting the proof away, so that a term read back through such operations is freed of its round trips by
  rewriting, one pair at a time — each step checked on its own small equation, never by comparing the two whole terms.
-/
import Idealize.ShloMosaic.Lib.StableHlo

namespace Cert.LibTypedRef

open Idealize.ShloMosaic Idealize.ShloMosaic.StableHlo

variable {sig : RefSig} {Val : EltTy → Type} {T : BufTy}

/-- Contents moved to the buffer's own type and back are unchanged. -/
theorem ofBuf_toBuf (x : TRef sig T) (v : T.Contents Val) : x.ofBuf (x.toBuf v) = v := by
  obtain ⟨ref, ty_eq, h1, h2⟩ := x
  subst ty_eq
  rfl

/-- Contents moved to the value's type and back are unchanged. -/
theorem toBuf_ofBuf (x : TRef sig T) (v : x.ref.ty.Contents Val) : x.toBuf (x.ofBuf v) = v := by
  obtain ⟨ref, ty_eq, h1, h2⟩ := x
  subst ty_eq
  rfl

end Cert.LibTypedRef
-- ==== Proof.RefFold.lean ====
/-
  The reference's line of host operations, read to its result.

  The reference computes a two-layer graph convolution in one straight line of 98 operations on whole arrays: from the
  edge list it builds the row and column index vectors (self-loops appended), the degrees, their inverse square roots
  and the edge weights; then, twice, a dense product, a gather along the edges scaled by the edge weights, a
  scatter-add back onto the nodes and a bias — a rectifier between the two layers — and last the row-wise log-softmax.
  Every operation writes one buffer of its own and reads earlier ones, and each buffer has a stage function saying what
  it holds as a function of the six arguments.

  The fold of the whole line over the launch contents is read here one STRETCH at a time. The line is cut into eight
  consecutive stretches; for each, from ANY contents of which the buffers the stretch reads are known to hold their
  stage functions, its output buffer holds its stage function after the stretch; a buffer a stretch does not write
  holds what it held. Chained, the result buffer after the whole line holds the last stage function of the
  arguments, and no operation writes an argument.
-/
import proofs.«105727_j40063454937538_1_alg».proof.Proof.RefRead
import proofs.«105727_j40063454937538_1_alg».proof.Proof.LibAfterAppend
import proofs.«105727_j40063454937538_1_alg».proof.Proof.LibTypedRef
import Idealize.ShloMosaic.Lib.StableHlo.Run

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
/-- Operations 0–6: the row and column index vectors of the edge list with the self-loops appended. -/
abbrev sA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Operations 7–20: the degrees and their inverse square roots, zero where the degree is not positive. -/
abbrev sB : List (HloOp τ sig (Elt F)) :=
  [ nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 21–39: the edge weights, the product of the two end points' inverse square root degrees. -/
abbrev sC : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- Operation 40: the first dense product. -/
abbrev s1 : List (HloOp τ sig (Elt F)) :=
  [ binary main_arg0 main_arg2 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

/-- Operations 41–59: the first aggregation over the edges and its bias. -/
abbrev s2 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- Operations 60–63: the rectifier and the second dense product. -/
abbrev s3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- Operations 64–82: the second aggregation over the edges and its bias. -/
abbrev s4 : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x40 ![0, 1] bcast_S3300000x1_S3300000x40_0_1 : (⟨S3300000x1, .f32⟩ : BufTy).Contents (Elt F) → (⟨S3300000x40, .f32⟩ : BufTy).Contents (Elt F)),
    binary main_v55 main_v57 main_v58 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v59 (broadcastInDim S100000x40 ![] bcast_S_S100000x40 : (⟨S_, .f32⟩ : BufTy).Contents (Elt F) → (⟨S100000x40, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v62 (broadcastInDim S1x40 ![1] bcast_S40_S1x40_1 : (⟨S40, .f32⟩ : BufTy).Contents (Elt F) → (⟨S1x40, .f32⟩ : BufTy).Contents (Elt F)),
    unary main_v62 main_v63 (broadcastInDim S100000x40 ![0, 1] bcast_S1x40_S100000x40_0_1 : (⟨S1x40, .f32⟩ : BufTy).Contents (Elt F) → (⟨S100000x40, .f32⟩ : BufTy).Contents (Elt F)),
    binary main_v61 main_v63 main_v64 (addf : (⟨S100000x40, .f32⟩ : BufTy).Contents (Elt F) → (⟨S100000x40, .f32⟩ : BufTy).Contents (Elt F) → (⟨S100000x40, .f32⟩ : BufTy).Contents (Elt F)) ]

/-- Operations 83–97: the row-wise log-softmax. -/
abbrev s5 : List (HloOp τ sig (Elt F)) :=
  [ TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v64) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v65) subf ]

set_option maxRecDepth 16384 in
/-- The reference's line of operations is the eight stretches set end to end. -/
theorem ops_eq : (ops : List (HloOp τ sig (Elt F)))
    = sA ++ (sB ++ (sC ++ (s1 ++ (s2 ++ (s3 ++ (s4 ++ s5)))))) := rfl

/-! ## What a stretch leaves alone

Each stretch's operations write one buffer each; the list of those buffers is written out, and a buffer that is not in
the list holds after the stretch what it held before. -/

/-- Every operation of a literal line writes into the listed buffers. -/
macro "writes_listed" s:ident : tactic =>
  `(tactic| (
    simp only [$s:ident, List.Forall, nullary_writes, unary_writes, binary_writes, ternary_writes, reshape_writes,
      Finset.singleton_subset_iff, List.mem_toFinset, List.mem_map]
    repeat' apply And.intro
    all_goals exact ⟨_, by decide, rfl⟩))

/-- The buffers stretch `sA` writes. -/
abbrev wA : List (Ref sig .tc) := [main_v0, main_v1, main_v2, main_v3, main_v4, main_v5, main_v6]
theorem writes_sA : (sA : List (HloOp τ sig (Elt F))).Forall fun op => op.writes ⊆ ((wA).map (Proc.devRef (τ := τ) .tc)).toFinset := by
  writes_listed sA
theorem kept_sA (V : Valuation τ sig (Elt F)) (r : Ref sig .tc) (hr : r ∉ wA) :
    after (sA (F := F)) V (Proc.devRef .tc r) = V (Proc.devRef .tc r) :=
  after_of_writes_sub sA V writes_sA hr

/-- The buffers stretch `sB` writes. -/
abbrev wB : List (Ref sig .tc) := [main_cst, main_v7, main_cst_0, main_v8, main_v9, main_v10, main_cst_1, main_v11, main_v12, main_v13, main_cst_2, main_call0_v0, main_call0_v1, main_v14]
theorem writes_sB : (sB : List (HloOp τ sig (Elt F))).Forall fun op => op.writes ⊆ ((wB).map (Proc.devRef (τ := τ) .tc)).toFinset := by
  writes_listed sB
theorem kept_sB (V : Valuation τ sig (Elt F)) (r : Ref sig .tc) (hr : r ∉ wB) :
    after (sB (F := F)) V (Proc.devRef .tc r) = V (Proc.devRef .tc r) :=
  after_of_writes_sub sB V writes_sB hr

/-- The buffers stretch `sC` writes. -/
abbrev wC : List (Ref sig .tc) := [main_c, main_v15, main_v16, main_c_3, main_v17, main_v18, main_v19, main_v20, main_v21, main_c_4, main_v22, main_v23, main_c_5, main_v24, main_v25, main_v26, main_v27, main_v28, main_v29]
theorem writes_sC : (sC : List (HloOp τ sig (Elt F))).Forall fun op => op.writes ⊆ ((wC).map (Proc.devRef (τ := τ) .tc)).toFinset := by
  writes_listed sC
theorem kept_sC (V : Valuation τ sig (Elt F)) (r : Ref sig .tc) (hr : r ∉ wC) :
    after (sC (F := F)) V (Proc.devRef .tc r) = V (Proc.devRef .tc r) :=
  after_of_writes_sub sC V writes_sC hr

/-- The buffers stretch `s1` writes. -/
abbrev w1 : List (Ref sig .tc) := [main_v30]
theorem writes_s1 : (s1 : List (HloOp τ sig (Elt F))).Forall fun op => op.writes ⊆ ((w1).map (Proc.devRef (τ := τ) .tc)).toFinset := by
  writes_listed s1
theorem kept_s1 (V : Valuation τ sig (Elt F)) (r : Ref sig .tc) (hr : r ∉ w1) :
    after (s1 (F := F)) V (Proc.devRef .tc r) = V (Proc.devRef .tc r) :=
  after_of_writes_sub s1 V writes_s1 hr

/-- The buffers stretch `s2` writes. -/
abbrev w2 : List (Ref sig .tc) := [main_c_6, main_v31, main_v32, main_c_7, main_v33, main_v34, main_v35, main_v36, main_v37, main_v38, main_v39, main_v40, main_cst_8, main_v41, main_v42, main_v43, main_v44, main_v45, main_v46]
theorem writes_s2 : (s2 : List (HloOp τ sig (Elt F))).Forall fun op => op.writes ⊆ ((w2).map (Proc.devRef (τ := τ) .tc)).toFinset := by
  writes_listed s2
theorem kept_s2 (V : Valuation τ sig (Elt F)) (r : Ref sig .tc) (hr : r ∉ w2) :
    after (s2 (F := F)) V (Proc.devRef .tc r) = V (Proc.devRef .tc r) :=
  after_of_writes_sub s2 V writes_s2 hr

/-- The buffers stretch `s3` writes. -/
abbrev w3 : List (Ref sig .tc) := [main_call1_cst, main_call1_v0, main_v47, main_v48]
theorem writes_s3 : (s3 : List (HloOp τ sig (Elt F))).Forall fun op => op.writes ⊆ ((w3).map (Proc.devRef (τ := τ) .tc)).toFinset := by
  writes_listed s3
theorem kept_s3 (V : Valuation τ sig (Elt F)) (r : Ref sig .tc) (hr : r ∉ w3) :
    after (s3 (F := F)) V (Proc.devRef .tc r) = V (Proc.devRef .tc r) :=
  after_of_writes_sub s3 V writes_s3 hr

/-- The buffers stretch `s4` writes. -/
abbrev w4 : List (Ref sig .tc) := [main_c_9, main_v49, main_v50, main_c_10, main_v51, main_v52, main_v53, main_v54, main_v55, main_v56, main_v57, main_v58, main_cst_11, main_v59, main_v60, main_v61, main_v62, main_v63, main_v64]
theorem writes_s4 : (s4 : List (HloOp τ sig (Elt F))).Forall fun op => op.writes ⊆ ((w4).map (Proc.devRef (τ := τ) .tc)).toFinset := by
  writes_listed s4
theorem kept_s4 (V : Valuation τ sig (Elt F)) (r : Ref sig .tc) (hr : r ∉ w4) :
    after (s4 (F := F)) V (Proc.devRef .tc r) = V (Proc.devRef .tc r) :=
  after_of_writes_sub s4 V writes_s4 hr

/-- The buffers stretch `s5` writes. -/
abbrev w5 : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v65]
theorem writes_s5 : (s5 : List (HloOp τ sig (Elt F))).Forall fun op => op.writes ⊆ ((w5).map (Proc.devRef (τ := τ) .tc)).toFinset := by
  writes_listed s5
theorem kept_s5 (V : Valuation τ sig (Elt F)) (r : Ref sig .tc) (hr : r ∉ w5) :
    after (s5 (F := F)) V (Proc.devRef .tc r) = V (Proc.devRef .tc r) :=
  after_of_writes_sub s5 V writes_s5 hr

/-! ## Each stretch read

A stretch's output buffer after the stretch, from ANY contents `V` of which the buffers the stretch reads are known:
the output's stage function. The fold is unfolded one operation at a time, each operation read at its own result
buffer or skipped at another's, and what is left is the stage functions' own tree of operations. -/

section Stretches
variable (V : Valuation τ sig (Elt F))

set_option maxHeartbeats 32000000 in
theorem sA_v3 (x1 : (⟨S2x3200000, .i32⟩ : BufTy).Contents (Elt F))
    (ha1 : V (Proc.devRef .tc main_arg1) = x1) :
    after (sA (F := F)) V (Proc.devRef .tc main_v3) = val_main_v3 (F := F) x1 := by
  dsimp only [sA]
  after_results
  rw [ha1]
  rfl

set_option maxHeartbeats 32000000 in
theorem sA_v6 (x1 : (⟨S2x3200000, .i32⟩ : BufTy).Contents (Elt F))
    (ha1 : V (Proc.devRef .tc main_arg1) = x1) :
    after (sA (F := F)) V (Proc.devRef .tc main_v6) = val_main_v6 (F := F) x1 := by
  dsimp only [sA]
  after_results
  rw [ha1]
  rfl

set_option maxHeartbeats 32000000 in
theorem sB_v14 (x1 : (⟨S2x3200000, .i32⟩ : BufTy).Contents (Elt F))
    (h6 : V (Proc.devRef .tc main_v6) = val_main_v6 (F := F) x1) :
    after (sB (F := F)) V (Proc.devRef .tc main_v14) = val_main_v14 (F := F) x1 := by
  dsimp only [sB]
  after_results
  simp only [Cert.LibTypedRef.ofBuf_toBuf]
  rw [h6]
  rfl

set_option maxHeartbeats 32000000 in
theorem sC_v29 (x1 : (⟨S2x3200000, .i32⟩ : BufTy).Contents (Elt F))
    (h3 : V (Proc.devRef .tc main_v3) = val_main_v3 (F := F) x1)
    (h6 : V (Proc.devRef .tc main_v6) = val_main_v6 (F := F) x1)
    (h14 : V (Proc.devRef .tc main_v14) = val_main_v14 (F := F) x1) :
    after (sC (F := F)) V (Proc.devRef .tc main_v29) = val_main_v29 (F := F) x1 := by
  dsimp only [sC]
  after_results
  rw [h3, h6, h14]
  rfl

set_option maxHeartbeats 32000000 in
theorem s1_v30 (x0 : (⟨S100000x512, .f32⟩ : BufTy).Contents (Elt F)) (x2 : (⟨S512x16, .f32⟩ : BufTy).Contents (Elt F))
    (ha0 : V (Proc.devRef .tc main_arg0) = x0)
    (ha2 : V (Proc.devRef .tc main_arg2) = x2) :
    after (s1 (F := F)) V (Proc.devRef .tc main_v30) = val_main_v30 (F := F) x0 x2 := by
  dsimp only [s1]
  after_results
  rw [ha0, ha2]
  rfl

set_option maxHeartbeats 32000000 in
theorem s2_v46 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F))
    (h3 : V (Proc.devRef .tc main_v3) = val_main_v3 (F := F) x1)
    (h6 : V (Proc.devRef .tc main_v6) = val_main_v6 (F := F) x1)
    (h29 : V (Proc.devRef .tc main_v29) = val_main_v29 (F := F) x1)
    (h30 : V (Proc.devRef .tc main_v30) = val_main_v30 (F := F) x0 x2)
    (ha3 : V (Proc.devRef .tc main_arg3) = x3) :
    after (s2 (F := F)) V (Proc.devRef .tc main_v46) = val_main_v46 (F := F) x0 x1 x2 x3 := by
  dsimp only [s2]
  after_results
  rw [h3, h6, h29, h30, ha3]
  rfl

set_option maxHeartbeats 32000000 in
theorem s3_v48 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x40, .f32⟩ : BufTy).Contents (Elt F))
    (h46 : V (Proc.devRef .tc main_v46) = val_main_v46 (F := F) x0 x1 x2 x3)
    (ha4 : V (Proc.devRef .tc main_arg4) = x4) :
    after (s3 (F := F)) V (Proc.devRef .tc main_v48) = val_main_v48 (F := F) x0 x1 x2 x3 x4 := by
  dsimp only [s3]
  after_results
  simp only [Cert.LibTypedRef.ofBuf_toBuf]
  rw [h46, ha4]
  rfl

set_option maxHeartbeats 32000000 in
theorem s4_v64 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))
    (h3 : V (Proc.devRef .tc main_v3) = val_main_v3 (F := F) x1)
    (h6 : V (Proc.devRef .tc main_v6) = val_main_v6 (F := F) x1)
    (h29 : V (Proc.devRef .tc main_v29) = val_main_v29 (F := F) x1)
    (h48 : V (Proc.devRef .tc main_v48) = val_main_v48 (F := F) x0 x1 x2 x3 x4)
    (ha5 : V (Proc.devRef .tc main_arg5) = x5) :
    after (s4 (F := F)) V (Proc.devRef .tc main_v64) = val_main_v64 (F := F) x0 x1 x2 x3 x4 x5 := by
  dsimp only [s4]
  after_results
  rw [h3, h6, h29, h48, ha5]
  rfl

set_option maxHeartbeats 32000000 in
theorem s5_v65 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))
    (h64 : V (Proc.devRef .tc main_v64) = val_main_v64 (F := F) x0 x1 x2 x3 x4 x5) :
    after (s5 (F := F)) V (Proc.devRef .tc main_v65) = val_main_v65 (F := F) x0 x1 x2 x3 x4 x5 := by
  dsimp only [s5]
  after_results
  simp only [Cert.LibTypedRef.ofBuf_toBuf]
  rw [h64]
  rfl

end Stretches

/-! ## The whole line, one stretch at a time

From any contents `A`: the contents after each stretch, what each stretch's output buffer holds there (its stage function
of `A` at the argument buffers), and every buffer a later stretch reads carried across the stretches that do not write it. -/

section Chain
variable (A : Valuation τ sig (Elt F))

/-- The contents after the stretches up to and including the named one, from contents `A`. -/
abbrev cA : Valuation τ sig (Elt F) := after sA A
abbrev cB : Valuation τ sig (Elt F) := after sB (cA A)
abbrev cC : Valuation τ sig (Elt F) := after sC (cB A)
abbrev c1 : Valuation τ sig (Elt F) := after s1 (cC A)
abbrev c2 : Valuation τ sig (Elt F) := after s2 (c1 A)
abbrev c3 : Valuation τ sig (Elt F) := after s3 (c2 A)
abbrev c4 : Valuation τ sig (Elt F) := after s4 (c3 A)
abbrev c5 : Valuation τ sig (Elt F) := after s5 (c4 A)

/-- The whole line's contents are the contents after the last stretch. -/
theorem after_ops_eq : after (ops (F := F)) A = c5 A := by
  rw [ops_eq]
  simp only [after_append]

/-- A buffer none of the first three, four, … stretches writes holds what it held. -/
theorem kept_C (r : Ref sig .tc) (hA : r ∉ wA) (hB : r ∉ wB) (hC : r ∉ wC) :
    cC A (Proc.devRef .tc r) = A (Proc.devRef .tc r) :=
  (kept_sC _ r hC).trans ((kept_sB _ r hB).trans (kept_sA _ r hA))
theorem kept_1 (r : Ref sig .tc) (hA : r ∉ wA) (hB : r ∉ wB) (hC : r ∉ wC) (h1 : r ∉ w1) :
    c1 A (Proc.devRef .tc r) = A (Proc.devRef .tc r) :=
  (kept_s1 _ r h1).trans (kept_C A r hA hB hC)
theorem kept_2 (r : Ref sig .tc) (hA : r ∉ wA) (hB : r ∉ wB) (hC : r ∉ wC) (h1 : r ∉ w1) (h2 : r ∉ w2) :
    c2 A (Proc.devRef .tc r) = A (Proc.devRef .tc r) :=
  (kept_s2 _ r h2).trans (kept_1 A r hA hB hC h1)
theorem kept_3 (r : Ref sig .tc) (hA : r ∉ wA) (hB : r ∉ wB) (hC : r ∉ wC) (h1 : r ∉ w1) (h2 : r ∉ w2) (h3 : r ∉ w3) :
    c3 A (Proc.devRef .tc r) = A (Proc.devRef .tc r) :=
  (kept_s3 _ r h3).trans (kept_2 A r hA hB hC h1 h2)
/-- A buffer no stretch writes holds after the whole line what it held. -/
theorem kept_ops (r : Ref sig .tc) (hA : r ∉ wA) (hB : r ∉ wB) (hC : r ∉ wC) (h1 : r ∉ w1) (h2 : r ∉ w2) (h3 : r ∉ w3)
    (h4 : r ∉ w4) (h5 : r ∉ w5) : after (ops (F := F)) A (Proc.devRef .tc r) = A (Proc.devRef .tc r) := by
  rw [after_ops_eq]
  exact (kept_s5 _ r h5).trans ((kept_s4 _ r h4).trans (kept_3 A r hA hB hC h1 h2 h3))

/-- The result buffer after the whole line, from any contents: the last stage function of the contents' argument buffers. -/
theorem fold_eq : after (ops (F := F)) A (Proc.devRef .tc main_v65)
    = val_main_v65 (F := F) (A (Proc.devRef .tc main_arg0)) (A (Proc.devRef .tc main_arg1)) (A (Proc.devRef .tc main_arg2)) (A (Proc.devRef .tc main_arg3)) (A (Proc.devRef .tc main_arg4)) (A (Proc.devRef .tc main_arg5)) := by
  rw [after_ops_eq]
  -- the index vectors, after the first stretch and carried to where they are last read
  have a3 : cA A (Proc.devRef .tc main_v3) = val_main_v3 (F := F) (A (Proc.devRef .tc main_arg1)) := sA_v3 A _ rfl
  have a6 : cA A (Proc.devRef .tc main_v6) = val_main_v6 (F := F) (A (Proc.devRef .tc main_arg1)) := sA_v6 A _ rfl
  have b3 : cB A (Proc.devRef .tc main_v3) = _ := (kept_sB _ main_v3 (by decide)).trans a3
  have b6 : cB A (Proc.devRef .tc main_v6) = _ := (kept_sB _ main_v6 (by decide)).trans a6
  have c3' : cC A (Proc.devRef .tc main_v3) = _ := (kept_sC _ main_v3 (by decide)).trans b3
  have c6 : cC A (Proc.devRef .tc main_v6) = _ := (kept_sC _ main_v6 (by decide)).trans b6
  have d3 : c1 A (Proc.devRef .tc main_v3) = _ := (kept_s1 _ main_v3 (by decide)).trans c3'
  have d6 : c1 A (Proc.devRef .tc main_v6) = _ := (kept_s1 _ main_v6 (by decide)).trans c6
  have e3 : c2 A (Proc.devRef .tc main_v3) = _ := (kept_s2 _ main_v3 (by decide)).trans d3
  have e6 : c2 A (Proc.devRef .tc main_v6) = _ := (kept_s2 _ main_v6 (by decide)).trans d6
  have f3 : c3 A (Proc.devRef .tc main_v3) = _ := (kept_s3 _ main_v3 (by decide)).trans e3
  have f6 : c3 A (Proc.devRef .tc main_v6) = _ := (kept_s3 _ main_v6 (by decide)).trans e6
  -- the edge weights
  have b14 : cB A (Proc.devRef .tc main_v14) = val_main_v14 (F := F) (A (Proc.devRef .tc main_arg1)) := sB_v14 (cA A) _ a6
  have c29 : cC A (Proc.devRef .tc main_v29) = val_main_v29 (F := F) (A (Proc.devRef .tc main_arg1)) := sC_v29 (cB A) _ b3 b6 b14
  have d29 : c1 A (Proc.devRef .tc main_v29) = _ := (kept_s1 _ main_v29 (by decide)).trans c29
  have e29 : c2 A (Proc.devRef .tc main_v29) = _ := (kept_s2 _ main_v29 (by decide)).trans d29
  have f29 : c3 A (Proc.devRef .tc main_v29) = _ := (kept_s3 _ main_v29 (by decide)).trans e29
  -- the first layer
  have d30 : c1 A (Proc.devRef .tc main_v30) = val_main_v30 (F := F) (A (Proc.devRef .tc main_arg0)) (A (Proc.devRef .tc main_arg2)) :=
    s1_v30 (cC A) _ _ (kept_C A main_arg0 (by decide) (by decide) (by decide)) (kept_C A main_arg2 (by decide) (by decide) (by decide))
  have e46 : c2 A (Proc.devRef .tc main_v46) = val_main_v46 (F := F) (A (Proc.devRef .tc main_arg0)) (A (Proc.devRef .tc main_arg1)) (A (Proc.devRef .tc main_arg2)) (A (Proc.devRef .tc main_arg3)) :=
    s2_v46 (c1 A) _ _ _ _ d3 d6 d29 d30 (kept_1 A main_arg3 (by decide) (by decide) (by decide) (by decide))
  -- the second layer
  have f48 : c3 A (Proc.devRef .tc main_v48) = val_main_v48 (F := F) (A (Proc.devRef .tc main_arg0)) (A (Proc.devRef .tc main_arg1)) (A (Proc.devRef .tc main_arg2)) (A (Proc.devRef .tc main_arg3)) (A (Proc.devRef .tc main_arg4)) :=
    s3_v48 (c2 A) _ _ _ _ _ e46 (kept_2 A main_arg4 (by decide) (by decide) (by decide) (by decide) (by decide))
  have g64 : c4 A (Proc.devRef .tc main_v64) = val_main_v64 (F := F) (A (Proc.devRef .tc main_arg0)) (A (Proc.devRef .tc main_arg1)) (A (Proc.devRef .tc main_arg2)) (A (Proc.devRef .tc main_arg3)) (A (Proc.devRef .tc main_arg4)) (A (Proc.devRef .tc main_arg5)) :=
    s4_v64 (c3 A) _ _ _ _ _ _ f3 f6 f29 f48 (kept_3 A main_arg5 (by decide) (by decide) (by decide) (by decide) (by decide) (by decide))
  exact s5_v65 (c4 A) _ _ _ _ _ _ g64

end Chain

/-! ## The run -/

/-- The result buffer after the reference's operations, from the launch contents: the last stage function of the arguments. -/
theorem result_eq (m : (ℓ : Loc nD τ sig) → Buf (Elt F) ℓ) (c : Dev nD) :
    after (ops (F := F)) (launchContents m c) (Proc.devRef .tc main_v65)
      = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  fold_eq (launchContents m c)

/-- No operation writes argument 0. -/
theorem kept_main_arg0 (m : (ℓ : Loc nD τ sig) → Buf (Elt F) ℓ) (c : Dev nD) :
    after (ops (F := F)) (launchContents m c) (Proc.devRef .tc main_arg0) = m ((c.tc : Thread nD τ).loc main_arg0) :=
  kept_ops (launchContents m c) main_arg0 (by decide) (by decide) (by decide) (by decide) (by decide) (by decide) (by decide) (by decide)

/-- No operation writes argument 1. -/
theorem kept_main_arg1 (m : (ℓ : Loc nD τ sig) → Buf (Elt F) ℓ) (c : Dev nD) :
    after (ops (F := F)) (launchContents m c) (Proc.devRef .tc main_arg1) = m ((c.tc : Thread nD τ).loc main_arg1) :=
  kept_ops (launchContents m c) main_arg1 (by decide) (by decide) (by decide) (by decide) (by decide) (by decide) (by decide) (by decide)

/-- No operation writes argument 2. -/
theorem kept_main_arg2 (m : (ℓ : Loc nD τ sig) → Buf (Elt F) ℓ) (c : Dev nD) :
    after (ops (F := F)) (launchContents m c) (Proc.devRef .tc main_arg2) = m ((c.tc : Thread nD τ).loc main_arg2) :=
  kept_ops (launchContents m c) main_arg2 (by decide) (by decide) (by decide) (by decide) (by decide) (by decide) (by decide) (by decide)

/-- No operation writes argument 3. -/
theorem kept_main_arg3 (m : (ℓ : Loc nD τ sig) → Buf (Elt F) ℓ) (c : Dev nD) :
    after (ops (F := F)) (launchContents m c) (Proc.devRef .tc main_arg3) = m ((c.tc : Thread nD τ).loc main_arg3) :=
  kept_ops (launchContents m c) main_arg3 (by decide) (by decide) (by decide) (by decide) (by decide) (by decide) (by decide) (by decide)

/-- No operation writes argument 4. -/
theorem kept_main_arg4 (m : (ℓ : Loc nD τ sig) → Buf (Elt F) ℓ) (c : Dev nD) :
    after (ops (F := F)) (launchContents m c) (Proc.devRef .tc main_arg4) = m ((c.tc : Thread nD τ).loc main_arg4) :=
  kept_ops (launchContents m c) main_arg4 (by decide) (by decide) (by decide) (by decide) (by decide) (by decide) (by decide) (by decide)

/-- No operation writes argument 5. -/
theorem kept_main_arg5 (m : (ℓ : Loc nD τ sig) → Buf (Elt F) ℓ) (c : Dev nD) :
    after (ops (F := F)) (launchContents m c) (Proc.devRef .tc main_arg5) = m ((c.tc : Thread nD τ).loc main_arg5) :=
  kept_ops (launchContents m c) main_arg5 (by decide) (by decide) (by decide) (by decide) (by decide) (by decide) (by decide) (by decide)

/-- On every device, from any memory with zero counters: every weakly fair execution of the reference terminates with
    its result at the last stage function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
          = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq m c),
      (h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c)⟩)
    (run_seq scopedRefs_eq scopedSems_eq defs main (fun _ => ops) main_eq (fun _ => ops_sub) m ρ)

end Cert.ReferenceIdeal.Fold

end
-- ==== Proof.RefGlue.lean ====
/-
  The two aggregation stages of the graph convolution, as functions of the dense stage before them.

  Between the dense stages both programs do the same thing to a node-feature matrix `h`: gather its rows at the edge
  sources (`row`, a negative index wrapped once by the node count), scale each gathered row by its edge weight
  (`nrm`), scatter-add the scaled rows at the edge targets (`col`) into a zero matrix, and add the bias to every row.
  `agg1` is that stage on 16 features, `agg2` on 40. Stated as functions of `h`, the index vectors, the edge weights
  and the bias, they are never opened: both programs apply them to equal arguments.
-/
import proofs.«105727_j40063454937538_1_alg».proof.Proof.RefRead

noncomputable section

namespace Cert.ReferenceIdeal.Glue

open Cert.ReferenceIdeal Cert.ReferenceIdeal.Gen Cert.ReferenceIdeal.ReadP
open Idealize.ShloMosaic Idealize.ShloMosaic.TcCoe Idealize.SL.Sem

variable {F : FTy → Type} [FloatOps F]

/-- The aggregation on 16 features: gather `h`'s rows at the wrapped sources, scale by the edge weights, scatter-add
    at the targets, add the bias. -/
def agg1 (h : (⟨S100000x16, .f32⟩ : BufTy).Contents (Elt F)) (row col : (⟨S3300000, .i32⟩ : BufTy).Contents (Elt F)) (nrm : (⟨S3300000, .f32⟩ : BufTy).Contents (Elt F))
    (b : (⟨S16, .f32⟩ : BufTy).Contents (Elt F)) : (⟨S100000x16, .f32⟩ : BufTy).Contents (Elt F) :=
  addf
    (Host.scatterAdd scatter_S100000x16_S3300000x1_S3300000x16_1_0_0_1
      (broadcastInDim S100000x16 ![] bcast_S_S100000x16 (constant (F := F) S_ .f32 0x00000000#32))
      (broadcastInDim S3300000x1 ![0] bcast_S3300000_S3300000x1_0 col)
      (mulf
        (Host.gather gather_S100000x16_S3300000x1_S3300000x16_1_0_n_n_0_1_116 h
          (broadcastInDim S3300000x1 ![0] bcast_S3300000_S3300000x1_0
            (select (cmpi .slt row (broadcastInDim S3300000 ![] bcast_S_S3300000 (constantI S_ 32 0#32)))
              (addi row (broadcastInDim S3300000 ![] bcast_S_S3300000 (constantI S_ 32 100000#32)))
              row)))
        (broadcastInDim S3300000x16 ![0, 1] bcast_S3300000x1_S3300000x16_0_1
          (broadcastInDim S3300000x1 ![0] bcast_S3300000_S3300000x1_0 nrm))))
    (broadcastInDim S100000x16 ![0, 1] bcast_S1x16_S100000x16_0_1 (broadcastInDim S1x16 ![1] bcast_S16_S1x16_1 b))

/-- The aggregation on 40 features. -/
def agg2 (h : (⟨S100000x40, .f32⟩ : BufTy).Contents (Elt F)) (row col : (⟨S3300000, .i32⟩ : BufTy).Contents (Elt F)) (nrm : (⟨S3300000, .f32⟩ : BufTy).Contents (Elt F))
    (b : (⟨S40, .f32⟩ : BufTy).Contents (Elt F)) : (⟨S100000x40, .f32⟩ : BufTy).Contents (Elt F) :=
  addf
    (Host.scatterAdd scatter_S100000x40_S3300000x1_S3300000x40_1_0_0_1
      (broadcastInDim S100000x40 ![] bcast_S_S100000x40 (constant (F := F) S_ .f32 0x00000000#32))
      (broadcastInDim S3300000x1 ![0] bcast_S3300000_S3300000x1_0 col)
      (mulf
        (Host.gather gather_S100000x40_S3300000x1_S3300000x40_1_0_n_n_0_1_140 h
          (broadcastInDim S3300000x1 ![0] bcast_S3300000_S3300000x1_0
            (select (cmpi .slt row (broadcastInDim S3300000 ![] bcast_S_S3300000 (constantI S_ 32 0#32)))
              (addi row (broadcastInDim S3300000 ![] bcast_S_S3300000 (constantI S_ 32 100000#32)))
              row)))
        (broadcastInDim S3300000x40 ![0, 1] bcast_S3300000x1_S3300000x40_0_1
          (broadcastInDim S3300000x1 ![0] bcast_S3300000_S3300000x1_0 nrm))))
    (broadcastInDim S100000x40 ![0, 1] bcast_S1x40_S100000x40_0_1 (broadcastInDim S1x40 ![1] bcast_S40_S1x40_1 b))

/-- The reference's first aggregation is `agg1` of its first dense stage. -/
theorem v46_eq (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) :
    val_main_v46 (F := F) x0 x1 x2 x3
      = agg1 (val_main_v30 (F := F) x0 x2) (val_main_v3 (F := F) x1) (val_main_v6 (F := F) x1) (val_main_v29 (F := F) x1) x3 := rfl

/-- The reference's second aggregation is `agg2` of its second dense stage. -/
theorem v64_eq (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F))
    (x4 : (⟨S16x40, .f32⟩ : BufTy).Contents (Elt F)) (x5 : (⟨S40, .f32⟩ : BufTy).Contents (Elt F)) :
    val_main_v64 (F := F) x0 x1 x2 x3 x4 x5
      = agg2 (val_main_v48 (F := F) x0 x1 x2 x3 x4) (val_main_v3 (F := F) x1) (val_main_v6 (F := F) x1) (val_main_v29 (F := F) x1) x5 := rfl

end Cert.ReferenceIdeal.Glue

end
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.Spec.lean ====
/-
  The three dense stages of the two-layer graph convolution, as functions on matrices of extended reals.

  • `matProd X W` — the matrix product: entry (r, j) is Σ_k X(r, k) · W(k, j).
  • `relu X` — the rectifier: entry by entry the maximum of the entry and the value of the zero word.
  • `logSoftmaxRows X` — the row-wise log-softmax in its shifted form: with M_r the running maximum of row r from
    −∞, entry (r, j) is (X(r, j) − M_r) − log Σ_k exp (X(r, k) − M_r).
  Each depends on one row of its left operand only, which is why a kernel that walks the rows in blocks and a program
  that takes the whole matrix at once compute the same array. The literal words (the zero, −∞) are kept as words:
  both programs spell the same ones, so they are never evaluated.
-/
import Idealize.ShloMosaic.PureOps.Ideal
import Idealize.ShloMosaic.Lib.ValueIdx
import proofs.«105727_j40063454937538_1_alg».proof.Proof.LibMaxReduce

noncomputable section

namespace Cert.Gcn

open Idealize.ShloMosaic Idealize.ShloMosaic.ValueIdx Cert.LibMaxReduce

/-- The value of the float word zero. -/
abbrev zeroW : EReal := Ideal.ofBits .f32 0x00000000#32
/-- The value of the float word −∞. -/
abbrev ninfW : EReal := Ideal.ofBits .f32 0xFF800000#32

/-- The matrix product of an `[A, K]` and a `[K, B]` matrix: entry (r, j) is Σ_k X(r, k) · W(k, j). -/
def matProd (A K B : ℕ) (X : (⟨2, ![A, K]⟩ : Shape).Idx → EReal) (W : (⟨2, ![K, B]⟩ : Shape).Idx → EReal) :
    (⟨2, ![A, B]⟩ : Shape).Idx → EReal :=
  fun i => ∑ k : Fin K, X (ix2 (n0 := A) (i 0) k) * W (ix2 (n1 := B) k (i 1))

theorem matProd_apply (A K B : ℕ) (X : (⟨2, ![A, K]⟩ : Shape).Idx → EReal) (W : (⟨2, ![K, B]⟩ : Shape).Idx → EReal)
    (r : Fin A) (j : Fin B) : matProd A K B X W (ix2 r j) = ∑ k : Fin K, X (ix2 r k) * W (ix2 k j) := rfl

/-- The rectifier, entry by entry. -/
def relu {A B : ℕ} (X : (⟨2, ![A, B]⟩ : Shape).Idx → EReal) : (⟨2, ![A, B]⟩ : Shape).Idx → EReal :=
  fun i => max (X i) zeroW

/-- One row's log-softmax at column `j`, in the shifted form. -/
def logSoftmaxRow {B : ℕ} (row : Fin B → EReal) (j : Fin B) : EReal :=
  (row j - foldMax ninfW row) - Ideal.log (∑ k : Fin B, Ideal.exp (row k - foldMax ninfW row))

/-- The row-wise log-softmax of an `[A, B]` matrix. -/
def logSoftmaxRows (A B : ℕ) (X : (⟨2, ![A, B]⟩ : Shape).Idx → EReal) : (⟨2, ![A, B]⟩ : Shape).Idx → EReal :=
  fun i => logSoftmaxRow (fun k : Fin B => X (ix2 (n0 := A) (i 0) k)) (i 1)

theorem logSoftmaxRows_apply (A B : ℕ) (X : (⟨2, ![A, B]⟩ : Shape).Idx → EReal) (r : Fin A) (j : Fin B) :
    logSoftmaxRows A B X (ix2 r j) = logSoftmaxRow (fun k : Fin B => X (ix2 r k)) j := rfl

end Cert.Gcn

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.Region0.lean ====
/-
  Region 0: the first dense stage, computed in row blocks, is the matrix product of the whole arrays.

  The region walks the rows of the left operand in 50 blocks of 2000 rows. At every point it multiplies the block of
  2000 rows by the whole right operand (512 × 16) and writes the 2000 × 16 result back to rows 2000 t … 2000 t + 1999 of
  the output. Row r of a product depends on row r of the left operand and on all of the right operand, so the blocks,
  which tile the rows, assemble to the product of the two arrays as the region finds them.
-/
import proofs.«105727_j40063454937538_1_alg».proof.Proof.Gen.KernelIdeal.Frame
import proofs.«105727_j40063454937538_1_alg».proof.Proof.Spec
import proofs.«105727_j40063454937538_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat)

/-! ## One block's result at an index -/

/-- The block's result at (r, j): the narrowing of both operands is the identity on extended reals, and the product
    into the zero accumulator is the sum over the 512 contracted positions. -/
theorem pay_apply (x0 : Vec Ideal S2000x512 .f32) (x1 : Vec Ideal S512x16 .f32) (r : Fin 2000) (j : Fin 16) :
    k0_pay1 (F := Ideal) x0 x1 (ix2 r j) = ∑ k : Fin 512, x0 (ix2 r k) * x1 (ix2 k j) := by
  unfold k0_pay1
  exact ValueIdx.matmul_plain_zero_apply 2000 512 16 none x0 x1 r j

/-! ## The index maps, decided over the 50 points -/

theorem zero_offsets : (![0, 0] : Fin 2 → Nat) = fun _ => 0 := funext fun a => by fin_cases a <;> rfl

/-- The left operand's block moves with the output's along the rows and sits at column block 0; the right operand's
    block is the whole array at every point; the output's block is at column block 0 and its row block is below 50. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every one of the 50 row blocks is some point's. -/
theorem index_onto : ∀ q : Fin 50, ∃ t : Fin cfg0.N, win0_2.index t = ![q.val, 0] :=
  (by decide +kernel : ∀ q : Fin 50, ∃ t : Fin grid0.N, win0_2.index t = ![q.val, 0])

/-! ## What a point writes back -/

/-- Row r of the left operand's block at point t is row (row block of t) · 2000 + r of the array. -/
theorem read_lhs (V : (c : Dev nD) → (b : Ref sig .tc) → Buf (Elt Ideal) ((c : Thread nD τ).loc b)) (c : Dev nD)
    (t : Fin cfg0.N) (r : Fin 2000) (k : Fin 512) (R : Fin 100000)
    (hR : R.val = win0_2.index t (0 : Fin 2) * 2000 + r.val) :
    iblk0 (F := Ideal) V c 0 t (ix2 r k) = V c main_arg0 (ix2 R k) := by
  obtain ⟨e0, e1, e2, e3, e4, e5⟩ := index_facts t
  show V c main_arg0 (((cfg0.win 0).blk t).view.emb (ix2 r k)) = V c main_arg0 (ix2 R k)
  have h : ((cfg0.win 0).blk t).view.emb (ix2 r k) = ix2 R k := by
    funext a; apply Fin.ext
    match a with
    | ⟨0, _⟩ => show win0_0.index t (0 : Fin 2) * 2000 + 1 * r.val = R.val; omega
    | ⟨1, _⟩ => show win0_0.index t (1 : Fin 2) * 512 + 1 * k.val = k.val; omega
  rw [h]

/-- The right operand's block at every point is the whole array. -/
theorem read_rhs (V : (c : Dev nD) → (b : Ref sig .tc) → Buf (Elt Ideal) ((c : Thread nD τ).loc b)) (c : Dev nD)
    (t : Fin cfg0.N) (k : Fin 512) (j : Fin 16) :
    iblk0 (F := Ideal) V c 1 t (ix2 k j) = V c main_arg2 (ix2 k j) := by
  obtain ⟨e0, e1, e2, e3, e4, e5⟩ := index_facts t
  show V c main_arg2 (((cfg0.win 1).blk t).view.emb (ix2 k j)) = V c main_arg2 (ix2 k j)
  have h : ((cfg0.win 1).blk t).view.emb (ix2 k j) = ix2 k j := by
    funext a; apply Fin.ext
    match a with
    | ⟨0, _⟩ => show win0_1.index t (0 : Fin 2) * 512 + 1 * k.val = k.val; omega
    | ⟨1, _⟩ => show win0_1.index t (1 : Fin 2) * 16 + 1 * j.val = j.val; omega
  rw [h]

/-- Point t writes back block t of the matrix product of the two arrays as the region finds them. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Gcn.matProd 100000 512 16 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2000x512) zero_offsets, View.ld_unit_zero (S := S512x16) zero_offsets]
  obtain ⟨e0, e1, e2, e3, e4, e5⟩ := index_facts t
  funext y
  obtain ⟨r, j, rfl⟩ : ∃ (r : Fin 2000) (j : Fin 16), y = ix2 r j := ⟨y 0, y 1, eq_ix2 y⟩
  have hr : r.val < 2000 := r.isLt
  have hlt : win0_2.index t (0 : Fin 2) * 2000 + r.val < 100000 := by omega
  have hemb : ((cfg0.win 2).blk t).view.emb (ix2 r j)
      = ix2 (⟨win0_2.index t (0 : Fin 2) * 2000 + r.val, hlt⟩ : Fin 100000) j := by
    funext a; apply Fin.ext
    match a with
    | ⟨0, _⟩ => show win0_2.index t (0 : Fin 2) * 2000 + 1 * r.val = win0_2.index t (0 : Fin 2) * 2000 + r.val; omega
    | ⟨1, _⟩ => show win0_2.index t (1 : Fin 2) * 16 + 1 * j.val = j.val; omega
  show k0_pay1 (F := Ideal) (iblk0 V c 0 t) (iblk0 V c 1 t) (ix2 r j)
    = Cert.Gcn.matProd 100000 512 16 (V c main_arg0) (V c main_arg2) (((cfg0.win 2).blk t).view.emb (ix2 r j))
  rw [hemb, Cert.Gcn.matProd_apply, pay_apply]
  refine Finset.sum_congr rfl fun k _ => ?_
  rw [read_lhs V c t r k ⟨win0_2.index t (0 : Fin 2) * 2000 + r.val, hlt⟩ rfl, read_rhs V c t k j]

/-! ## The blocks tile the rows -/

/-- An index of the output is in point t's block iff each coordinate is in the block's range on its axis. -/
theorem mem_blk (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- Row R of the output is in the block of the point whose row block is R / 2000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 16 ≤ (i 1).val ∧ (i 1).val < win0_2.index t (1 : Fin 2) * 16 + 16
    omega

/-! ## The output array after the 50 points -/

/-- Region 0's output after all its points is the matrix product of its two input arrays as it finds them. -/
theorem final (V : (c : Dev nD) → (b : Ref sig .tc) → Buf (Elt Ideal) ((c : Thread nD τ).loc b)) (c : Dev nD) :
    (dat0 (F := Ideal) V c).arrAt 2 cfg0.N = Cert.Gcn.matProd 100000 512 16 (V c main_arg0) (V c main_arg2) :=
  (dat0 (F := Ideal) V c).arrAt_eq_of_cover 2 (Cert.Gcn.matProd 100000 512 16 (V c main_arg0) (V c main_arg2))
    (fun t _ => flushed_eq V c t) cover

end Cert.KernelIdeal.Region0

end
-- ==== Proof.Region1.lean ====
/-
  Region 1: the second dense stage, computed in row blocks, is the matrix product of the rectified left array with the
  right array.

  The region walks the rows of the left operand in 20 blocks of 5000 rows. At every point it rectifies the block of
  5000 rows entry by entry (the maximum with the value of the zero word), multiplies it by the whole right operand
  (16 × 40) and writes the 5000 × 40 result back to rows 5000 t … 5000 t + 4999 of the output. Row r of the result depends
  on row r of the left operand and on all of the right operand, so the blocks, which tile the rows, assemble to the
  product of the rectified left array with the right array as the region finds them. The zero word is kept as a word.
-/
import proofs.«105727_j40063454937538_1_alg».proof.Proof.Gen.KernelIdeal.Frame
import proofs.«105727_j40063454937538_1_alg».proof.Proof.Spec
import proofs.«105727_j40063454937538_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem Cert.KernelIdeal Cert.KernelIdeal.Gen
open Idealize.ShloMosaic.ValueIdx
open Idealize.ShloMosaic.Pipeline (Dat)

/-! ## One block's result at an index -/

/-- The block's result at (r, j): the cast to the same shape is the identity, the broadcast zero word reads as its
    value at every index, the maximum is the maximum of extended reals, the narrowing of both operands is the
    identity, and the product into the zero accumulator is the sum over the 16 contracted positions. -/
theorem pay_apply (x0 : Vec Ideal S5000x16 .f32) (x1 : Vec Ideal S16x40 .f32) (r : Fin 5000) (j : Fin 40) :
    k1_pay1 (F := Ideal) x0 x1 (ix2 r j) = ∑ k : Fin 16, max (x0 (ix2 r k)) Cert.Gcn.zeroW * x1 (ix2 k j) := by
  unfold k1_pay1
  refine (ValueIdx.matmul_plain_zero_apply 5000 16 40 none _ _ r j).trans ?_
  refine Finset.sum_congr rfl fun k _ => ?_
  rw [truncf_apply, truncf_apply, maximumf_apply, broadcast_apply, shapeCast_self]
  rfl

/-! ## The index maps, decided over the 20 points -/

theorem zero_offsets : (![0, 0] : Fin 2 → Nat) = fun _ => 0 := funext fun a => by fin_cases a <;> rfl

/-- The left operand's block moves with the output's along the rows and sits at column block 0; the right operand's
    block is the whole array at every point; the output's block is at column block 0 and its row block is below 20. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the 20 row blocks is some point's. -/
theorem index_onto : ∀ q : Fin 20, ∃ t : Fin cfg1.N, win1_2.index t = ![q.val, 0] :=
  (by decide +kernel : ∀ q : Fin 20, ∃ t : Fin grid1.N, win1_2.index t = ![q.val, 0])

/-! ## What a point writes back -/

/-- Row r of the left operand's block at point t is row (row block of t) · 5000 + r of the array. -/
theorem read_lhs (V : (c : Dev nD) → (b : Ref sig .tc) → Buf (Elt Ideal) ((c : Thread nD τ).loc b)) (c : Dev nD)
    (t : Fin cfg1.N) (r : Fin 5000) (k : Fin 16) (R : Fin 100000)
    (hR : R.val = win1_2.index t (0 : Fin 2) * 5000 + r.val) :
    iblk1 (F := Ideal) V c 0 t (ix2 r k) = V c main_v46 (ix2 R k) := by
  obtain ⟨e0, e1, e2, e3, e4, e5⟩ := index_facts t
  show V c main_v46 (((cfg1.win 0).blk t).view.emb (ix2 r k)) = V c main_v46 (ix2 R k)
  have h : ((cfg1.win 0).blk t).view.emb (ix2 r k) = ix2 R k := by
    funext a; apply Fin.ext
    match a with
    | ⟨0, _⟩ => show win1_0.index t (0 : Fin 2) * 5000 + 1 * r.val = R.val; omega
    | ⟨1, _⟩ => show win1_0.index t (1 : Fin 2) * 16 + 1 * k.val = k.val; omega
  rw [h]

/-- The right operand's block at every point is the whole array. -/
theorem read_rhs (V : (c : Dev nD) → (b : Ref sig .tc) → Buf (Elt Ideal) ((c : Thread nD τ).loc b)) (c : Dev nD)
    (t : Fin cfg1.N) (k : Fin 16) (j : Fin 40) :
    iblk1 (F := Ideal) V c 1 t (ix2 k j) = V c main_arg4 (ix2 k j) := by
  obtain ⟨e0, e1, e2, e3, e4, e5⟩ := index_facts t
  show V c main_arg4 (((cfg1.win 1).blk t).view.emb (ix2 k j)) = V c main_arg4 (ix2 k j)
  have h : ((cfg1.win 1).blk t).view.emb (ix2 k j) = ix2 k j := by
    funext a; apply Fin.ext
    match a with
    | ⟨0, _⟩ => show win1_1.index t (0 : Fin 2) * 16 + 1 * k.val = k.val; omega
    | ⟨1, _⟩ => show win1_1.index t (1 : Fin 2) * 40 + 1 * j.val = j.val; omega
  rw [h]

/-- Point t writes back block t of the product of the rectified left array with the right array, as the region finds
    them. -/
theorem flushed_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal)
          (Cert.Gcn.matProd 100000 16 40 (Cert.Gcn.relu (V c main_v46)) (V c main_arg4)) := by
  show (cfg1.win 2).cut (grid1.coords t) ((dat1 (F := Ideal) V c).after 2 t) = _
  rw [after1_2]
  unfold out1_2
  rw [View.canon_unit_zero zero_offsets]
  simp only [View.ld_unit_zero (S := S5000x16) zero_offsets, View.ld_unit_zero (S := S16x40) zero_offsets]
  obtain ⟨e0, e1, e2, e3, e4, e5⟩ := index_facts t
  funext y
  obtain ⟨r, j, rfl⟩ : ∃ (r : Fin 5000) (j : Fin 40), y = ix2 r j := ⟨y 0, y 1, eq_ix2 y⟩
  have hr : r.val < 5000 := r.isLt
  have hlt : win1_2.index t (0 : Fin 2) * 5000 + r.val < 100000 := by omega
  have hemb : ((cfg1.win 2).blk t).view.emb (ix2 r j)
      = ix2 (⟨win1_2.index t (0 : Fin 2) * 5000 + r.val, hlt⟩ : Fin 100000) j := by
    funext a; apply Fin.ext
    match a with
    | ⟨0, _⟩ => show win1_2.index t (0 : Fin 2) * 5000 + 1 * r.val = win1_2.index t (0 : Fin 2) * 5000 + r.val; omega
    | ⟨1, _⟩ => show win1_2.index t (1 : Fin 2) * 40 + 1 * j.val = j.val; omega
  show k1_pay1 (F := Ideal) (iblk1 V c 0 t) (iblk1 V c 1 t) (ix2 r j)
    = Cert.Gcn.matProd 100000 16 40 (Cert.Gcn.relu (V c main_v46)) (V c main_arg4)
        (((cfg1.win 2).blk t).view.emb (ix2 r j))
  rw [hemb, Cert.Gcn.matProd_apply, pay_apply]
  refine Finset.sum_congr rfl fun k _ => ?_
  rw [read_lhs V c t r k ⟨win1_2.index t (0 : Fin 2) * 5000 + r.val, hlt⟩ rfl, read_rhs V c t k j]
  rfl

/-! ## The blocks tile the rows -/

/-- An index of the output is in point t's block iff each coordinate is in the block's range on its axis. -/
theorem mem_blk (t : Fin cfg1.N) (i : S100000x40.Idx) :
    i ∈ ((cfg1.win 2).blk t).view.set ↔ ∀ a : Fin 2, win1_2.index t a * S5000x40.size a ≤ (i a).val
      ∧ (i a).val < win1_2.index t a * S5000x40.size a + S5000x40.size a := by
  show i ∈ ((View.whole main_v47).slice (win1_2.rect t)).set ↔ _
  rw [View.set_slice_whole, Rect.mem_set_unit]
  exact Iff.rfl

/-- Row R of the output is in the block of the point whose row block is R / 5000. -/
theorem cover (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 40 ≤ (i 1).val ∧ (i 1).val < win1_2.index t (1 : Fin 2) * 40 + 40
    omega

/-! ## The output array after the 20 points -/

/-- Region 1's output after all its points is the product of its rectified left input array with its right input
    array, as it finds them. -/
theorem final (V : (c : Dev nD) → (b : Ref sig .tc) → Buf (Elt Ideal) ((c : Thread nD τ).loc b)) (c : Dev nD) :
    (dat1 (F := Ideal) V c).arrAt 2 cfg1.N
      = Cert.Gcn.matProd 100000 16 40 (Cert.Gcn.relu (V c main_v46)) (V c main_arg4) :=
  (dat1 (F := Ideal) V c).arrAt_eq_of_cover 2
    (Cert.Gcn.matProd 100000 16 40 (Cert.Gcn.relu (V c main_v46)) (V c main_arg4))
    (fun t _ => flushed_eq V c t) cover

end Cert.KernelIdeal.Region1

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«105727_j40063454937538_1_alg».proof.Proof.LibKeepdims
import proofs.«105727_j40063454937538_1_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.Region2.lean ====
/-
  The third stage's output array after its twenty blocks.

  The stage walks a `[100000, 40]` matrix in twenty blocks of 5000 rows. On a block it computes, row by row, the
  log-softmax in its shifted form: with M_r the running maximum of row r from −∞, entry (r, j) becomes
  (x(r, j) − M_r) − log Σ_k exp (x(r, k) − M_r). Each output row depends on the same input row only, and block `t`
  reads and writes rows 5000·t … 5000·t + 4999 of every column, so the twenty blocks tile the array and the array they
  leave is the row-wise log-softmax of the whole input array:
  • `pay_apply` — the block's arithmetic read at an entry (r, j): the shifted log-softmax of row r of the block at j;
  • `in_block_apply` — the input block at (r, k) is the input array at row 5000·(block row) + r, column k;
  • `flushed_eq` — what a point writes back is its block of the row-wise log-softmax of the input array;
  • `cover` — row ρ lies in the block whose block row is ρ / 5000;
  • `final` — the whole output array.
-/
import proofs.«105727_j40063454937538_1_alg».proof.Proof.Gen.KernelIdeal.Frame
import proofs.«105727_j40063454937538_1_alg».proof.Proof.Spec
import proofs.«105727_j40063454937538_1_alg».proof.Proof.LibKeepdims
import proofs.«105727_j40063454937538_1_alg».proof.Proof.LibMaxReduce
import proofs.«105727_j40063454937538_1_alg».proof.Proof.LibSoftmaxBlock
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Cert.KernelIdeal Cert.KernelIdeal.Gen Idealize.ShloMosaic.ValueIdx
open Cert.LibMaxReduce

namespace Cert.KernelIdeal.Region2

/-- The block's payload at row `r`, column `j`: the shifted log-softmax of row `r` of the block, at `j`. Entry
    `(r, j)` minus the running maximum of row `r`, minus the logarithm of the sum over row `r` of the exponentials of
    the entries' distances below that maximum; it depends on row `r` of the block only. -/
theorem pay_apply (x0 : Vec Ideal S5000x40 .f32) (r : Fin 5000) (j : Fin 40) :
    k2_pay1 (F := Ideal) x0 (ix2 r j) = Cert.Gcn.logSoftmaxRow (fun k : Fin 40 => x0 (ix2 r k)) j := by
  unfold k2_pay1
  rw [shapeCast_self x0 shapeCasts_S5000x40_S5000x40]
  unfold Cert.Gcn.logSoftmaxRow
  rw [subf_apply, subf_apply]
  refine congrArg₂ (fun a b : EReal => a - b) ?_ ?_
  · -- the entry minus its row's running maximum
    exact congrArg (fun z : EReal => x0 (ix2 r j) - z)
      (Cert.LibSoftmaxBlock.rowMax_spread_apply x0 _ _ _ _ _ _ r j)
  · -- the column of logarithms of the row sums, spread over the columns
    refine (Cert.LibKeepdims.broadcastTo_a1_ab_apply _ _ r j (0 : Fin 1)).trans ?_
    refine congrArg Ideal.log ?_
    refine (Cert.LibKeepdims.shapeCast_a_a1_apply _ _ r (0 : Fin 1)).trans ?_
    refine (Cert.LibKeepdims.multiReduction_add_lastAxis_apply _ _ _ _ _ r).trans ?_
    exact Finset.sum_congr rfl fun k _ => Cert.LibSoftmaxBlock.expBelowRowMax_apply x0 _ _ _ _ _ _ r k

/-! ## From the blocks to the whole array -/

theorem zero_offsets : (![0, 0] : Fin 2 → Nat) = fun _ => 0 := funext fun a => by fin_cases a <;> rfl

/-- The two windows' index maps, decided over the twenty points: the input block and the output block sit at the same
    block row, both at block column zero, and the block row stays below twenty. -/
theorem idx_facts : ∀ t : Fin cfg2.N, win2_0.index t (0 : Fin 2) = win2_1.index t (0 : Fin 2)
    ∧ win2_0.index t (1 : Fin 2) = 0
    ∧ win2_1.index t (1 : Fin 2) = 0
    ∧ win2_1.index t (0 : Fin 2) ≤ 19 :=
  (by decide +kernel : ∀ t : Fin grid2.N, _)

/-- Every one of the twenty block rows is some point's. -/
theorem idx_onto : ∀ q : Fin 20, ∃ t : Fin cfg2.N, win2_1.index t = ![q.val, 0] :=
  (by decide +kernel : ∀ q : Fin 20, ∃ t : Fin grid2.N, win2_1.index t = ![q.val, 0])

section
variable (V : (c : Dev nD) → (b : Ref sig .tc) → Buf (Elt Ideal) ((c : Thread nD τ).loc b))

/-- The input block at point `t`, read at `(r, k)`: the input array at row `5000 · (block row) + r`, column `k`. -/
theorem in_block_apply (c : Dev nD) (t : Fin cfg2.N) (r : Fin 5000) (k : Fin 40) (R : Fin 100000)
    (hR : R.val = win2_1.index t (0 : Fin 2) * 5000 + r.val) :
    iblk2 (F := Ideal) V c 0 t (ix2 r k) = V c main_v63 (ix2 R k) := by
  unfold iblk2
  show V c main_v63 (((cfg2.win 0).blk t).view.emb (ix2 r k)) = V c main_v63 (ix2 R k)
  refine congrArg (V c main_v63) ?_
  obtain ⟨e0, e1, e2, e3⟩ := idx_facts t
  funext a; apply Fin.ext
  match a with
  | ⟨0, _⟩ => show win2_0.index t (0 : Fin 2) * 5000 + 1 * r.val = R.val; omega
  | ⟨1, _⟩ => show win2_0.index t (1 : Fin 2) * 40 + 1 * k.val = k.val; omega

/-- What point `t` writes back is block `t` of the row-wise log-softmax of the input array as the region finds it. -/
theorem flushed_eq (c : Dev nD) (t : Fin cfg2.N) :
    (dat2 (F := Ideal) V c).flushed 1 t
      = ((cfg2.win 1).blk t).view.read (Elt Ideal) (Cert.Gcn.logSoftmaxRows 100000 40 (V c main_v63)) := by
  show (cfg2.win 1).cut (grid2.coords t) ((dat2 V c).after 1 t) = _
  rw [after2_1]
  unfold out2_1
  rw [View.canon_unit_zero zero_offsets]
  simp only [View.ld_unit_zero (S := S5000x40) zero_offsets]
  funext y
  obtain ⟨r, j, rfl⟩ : ∃ (r : Fin 5000) (j : Fin 40), y = ValueIdx.ix2 r j := ⟨y 0, y 1, ValueIdx.eq_ix2 y⟩
  show k2_pay1 (F := Ideal) (iblk2 V c 0 t) (ix2 r j)
      = Cert.Gcn.logSoftmaxRows 100000 40 (V c main_v63) (((cfg2.win 1).blk t).view.emb (ix2 r j))
  obtain ⟨e0, e1, e2, e3⟩ := idx_facts t
  have hlt : win2_1.index t (0 : Fin 2) * 5000 + r.val < 100000 := by have := r.isLt; omega
  -- where the block's entry `(r, j)` sits in the array: row 5000 · (block row) + r, column j
  have hemb : ((cfg2.win 1).blk t).view.emb (ix2 r j)
      = ix2 (⟨win2_1.index t (0 : Fin 2) * 5000 + r.val, hlt⟩ : Fin 100000) j := by
    funext a; apply Fin.ext
    match a with
    | ⟨0, _⟩ =>
      show win2_1.index t (0 : Fin 2) * 5000 + 1 * r.val = win2_1.index t (0 : Fin 2) * 5000 + r.val; omega
    | ⟨1, _⟩ => show win2_1.index t (1 : Fin 2) * 40 + 1 * j.val = j.val; omega
  rw [hemb, Cert.Gcn.logSoftmaxRows_apply]
  refine (pay_apply (iblk2 V c 0 t) r j).trans ?_
  -- the two rows agree entry by entry: row `r` of the input block is that row of the input array
  refine congrArg (fun row : Fin 40 → EReal => Cert.Gcn.logSoftmaxRow row j) ?_
  funext k
  exact in_block_apply V c t r k ⟨_, hlt⟩ rfl

/-- An index of the output array is in point `t`'s block iff each coordinate is in the block's range on its axis. -/
theorem mem_blk (t : Fin cfg2.N) (i : S100000x40.Idx) :
    i ∈ ((cfg2.win 1).blk t).view.set ↔ ∀ a : Fin 2, win2_1.index t a * S5000x40.size a ≤ (i a).val
      ∧ (i a).val < win2_1.index t a * S5000x40.size a + S5000x40.size a := by
  show i ∈ ((View.whole main_v64).slice (win2_1.rect t)).set ↔ _
  rw [View.set_slice_whole, Rect.mem_set_unit]
  exact Iff.rfl

/-- The blocks tile the array: row `ρ` is in the block of the point whose block row is `ρ / 5000`. -/
theorem cover (i : S100000x40.Idx) :
    ∃ t : Fin cfg2.N, (cfg2.win 1).flush t = true ∧ i ∈ ((cfg2.win 1).blk t).view.set := by
  have hi0 : (i 0).val < 100000 := (i 0).isLt
  have hi1 : (i 1).val < 40 := (i 1).isLt
  obtain ⟨t, ht⟩ := idx_onto ⟨(i 0).val / 5000, by omega⟩
  have q0 : win2_1.index t (0 : Fin 2) = (i 0).val / 5000 := congrFun ht 0
  have q1 : win2_1.index t (1 : Fin 2) = 0 := congrFun ht 1
  refine ⟨t, flush2_1 t, ?_⟩
  rw [mem_blk]
  intro a
  match a with
  | ⟨0, _⟩ =>
    show win2_1.index t (0 : Fin 2) * 5000 ≤ (i 0).val ∧ (i 0).val < win2_1.index t (0 : Fin 2) * 5000 + 5000
    omega
  | ⟨1, _⟩ =>
    show win2_1.index t (1 : Fin 2) * 40 ≤ (i 1).val ∧ (i 1).val < win2_1.index t (1 : Fin 2) * 40 + 40
    omega

/-- The output array after all twenty points: the row-wise log-softmax of the input array as the region finds it. -/
theorem final (c : Dev nD) :
    (dat2 (F := Ideal) V c).arrAt 1 cfg2.N = Cert.Gcn.logSoftmaxRows 100000 40 (V c main_v63) :=
  (dat2 (F := Ideal) V c).arrAt_eq_of_cover 1 _ (fun t _ => flushed_eq V c t) cover

end

end Cert.KernelIdeal.Region2

end
-- ==== Proof.KernelMid.lean ====
/-
  The kernel program's result array as one expression of the contents region 0 is entered with.

  Walking the boundaries backwards: the result is what region 2 leaves, the row-wise log-softmax of its input array;
  that input is the second aggregation (a stretch of host operations) of region 1's output and of the index vectors,
  edge weights and bias, none of which anything after region 0's entry writes; region 1's output is the matrix product
  of the rectified first aggregation with the second weight; the first aggregation is the same stretch of host
  operations applied to region 0's output; and region 0's output is the matrix product of the features with the first
  weight. Each stretch of host operations is read once, for arbitrary contents, as the aggregation function of the
  buffers it reads.
-/
import proofs.«105727_j40063454937538_1_alg».proof.Proof.Gen.KernelIdeal.Frame
import proofs.«105727_j40063454937538_1_alg».proof.Proof.RefGlue
import proofs.«105727_j40063454937538_1_alg».proof.Proof.Region0
import proofs.«105727_j40063454937538_1_alg».proof.Proof.Region1
import proofs.«105727_j40063454937538_1_alg».proof.Proof.Region2
import Idealize.ShloMosaic.PureOps.Ideal
import Idealize.ShloMosaic.Lib.StableHlo.Run

set_option maxRecDepth 16384

noncomputable section

namespace Cert.KernelIdeal.Mid

open Idealize.ShloMosaic Idealize.ShloMosaic.TcCoe Idealize.SL.Sem Cert.KernelIdeal Cert.KernelIdeal.Gen
open Idealize.ShloMosaic.StableHlo

/-! ## The two aggregation stretches, for arbitrary contents -/

set_option maxHeartbeats 16000000 in
/-- The stretch between regions 0 and 1 leaves, in the first aggregation's buffer, `agg1` of the buffers it reads. -/
theorem stretch1 (V : Valuation τ sig (Elt Ideal)) :
    StableHlo.after (hostOps1 (F := Ideal)) V (Proc.devRef .tc main_v46)
      = Cert.ReferenceIdeal.Glue.agg1 (F := Ideal) (V (Proc.devRef .tc main_v30)) (V (Proc.devRef .tc main_v3))
          (V (Proc.devRef .tc main_v6)) (V (Proc.devRef .tc main_v29)) (V (Proc.devRef .tc main_arg3)) := by
  dsimp only [hostOps1]
  after_results
  rfl

set_option maxHeartbeats 16000000 in
/-- The stretch between regions 1 and 2 leaves, in the second aggregation's buffer, `agg2` of the buffers it reads. -/
theorem stretch2 (V : Valuation τ sig (Elt Ideal)) :
    StableHlo.after (hostOps2 (F := Ideal)) V (Proc.devRef .tc main_v63)
      = Cert.ReferenceIdeal.Glue.agg2 (F := Ideal) (V (Proc.devRef .tc main_v47)) (V (Proc.devRef .tc main_v3))
          (V (Proc.devRef .tc main_v6)) (V (Proc.devRef .tc main_v29)) (V (Proc.devRef .tc main_arg5)) := by
  dsimp only [hostOps2]
  after_results
  rfl

/-! ## What the stretches and the regions leave alone -/

variable (m : (ℓ : Loc nD τ sig) → Buf (Elt Ideal) ℓ) (ρ : Dev nD → PrngReg)

/-- No operation of the stretch between regions 0 and 1 writes the buffer: the fold leaves it as it was. -/
local macro "untouched_by_stretch" : tactic => `(tactic| (
  refine StableHlo.after_of_forall_not_mem _ _ (List.forall_iff_forall_mem.mp ?_)
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem k4_main_v3 (c : Dev nD) : W4 m ρ c (Proc.devRef .tc main_v3) = W3 m ρ c (Proc.devRef .tc main_v3) := W4_of_ne m ρ c main_v3 (by decide)
theorem k4_main_v6 (c : Dev nD) : W4 m ρ c (Proc.devRef .tc main_v6) = W3 m ρ c (Proc.devRef .tc main_v6) := W4_of_ne m ρ c main_v6 (by decide)
theorem k4_main_v29 (c : Dev nD) : W4 m ρ c (Proc.devRef .tc main_v29) = W3 m ρ c (Proc.devRef .tc main_v29) := W4_of_ne m ρ c main_v29 (by decide)
theorem k4_main_arg3 (c : Dev nD) : W4 m ρ c (Proc.devRef .tc main_arg3) = W3 m ρ c (Proc.devRef .tc main_arg3) := W4_of_ne m ρ c main_arg3 (by decide)
theorem k4_main_arg4 (c : Dev nD) : W4 m ρ c (Proc.devRef .tc main_arg4) = W3 m ρ c (Proc.devRef .tc main_arg4) := W4_of_ne m ρ c main_arg4 (by decide)
theorem k4_main_arg5 (c : Dev nD) : W4 m ρ c (Proc.devRef .tc main_arg5) = W3 m ρ c (Proc.devRef .tc main_arg5) := W4_of_ne m ρ c main_arg5 (by decide)

theorem k5_main_v3 (c : Dev nD) : W5 m ρ c (Proc.devRef .tc main_v3) = W3 m ρ c (Proc.devRef .tc main_v3) :=
  (show StableHlo.after (hostOps1 (F := Ideal)) (W4 m ρ c) (Proc.devRef .tc main_v3) = W4 m ρ c (Proc.devRef .tc main_v3) by untouched_by_stretch).trans (k4_main_v3 m ρ c)
theorem k5_main_v6 (c : Dev nD) : W5 m ρ c (Proc.devRef .tc main_v6) = W3 m ρ c (Proc.devRef .tc main_v6) :=
  (show StableHlo.after (hostOps1 (F := Ideal)) (W4 m ρ c) (Proc.devRef .tc main_v6) = W4 m ρ c (Proc.devRef .tc main_v6) by untouched_by_stretch).trans (k4_main_v6 m ρ c)
theorem k5_main_v29 (c : Dev nD) : W5 m ρ c (Proc.devRef .tc main_v29) = W3 m ρ c (Proc.devRef .tc main_v29) :=
  (show StableHlo.after (hostOps1 (F := Ideal)) (W4 m ρ c) (Proc.devRef .tc main_v29) = W4 m ρ c (Proc.devRef .tc main_v29) by untouched_by_stretch).trans (k4_main_v29 m ρ c)
theorem k5_main_arg4 (c : Dev nD) : W5 m ρ c (Proc.devRef .tc main_arg4) = W3 m ρ c (Proc.devRef .tc main_arg4) :=
  (show StableHlo.after (hostOps1 (F := Ideal)) (W4 m ρ c) (Proc.devRef .tc main_arg4) = W4 m ρ c (Proc.devRef .tc main_arg4) by untouched_by_stretch).trans (k4_main_arg4 m ρ c)
theorem k5_main_arg5 (c : Dev nD) : W5 m ρ c (Proc.devRef .tc main_arg5) = W3 m ρ c (Proc.devRef .tc main_arg5) :=
  (show StableHlo.after (hostOps1 (F := Ideal)) (W4 m ρ c) (Proc.devRef .tc main_arg5) = W4 m ρ c (Proc.devRef .tc main_arg5) by untouched_by_stretch).trans (k4_main_arg5 m ρ c)

theorem k6_main_v3 (c : Dev nD) : W6 m ρ c (Proc.devRef .tc main_v3) = W3 m ρ c (Proc.devRef .tc main_v3) := (W6_of_ne m ρ c main_v3 (by decide)).trans (k5_main_v3 m ρ c)
theorem k6_main_v6 (c : Dev nD) : W6 m ρ c (Proc.devRef .tc main_v6) = W3 m ρ c (Proc.devRef .tc main_v6) := (W6_of_ne m ρ c main_v6 (by decide)).trans (k5_main_v6 m ρ c)
theorem k6_main_v29 (c : Dev nD) : W6 m ρ c (Proc.devRef .tc main_v29) = W3 m ρ c (Proc.devRef .tc main_v29) := (W6_of_ne m ρ c main_v29 (by decide)).trans (k5_main_v29 m ρ c)
theorem k6_main_arg5 (c : Dev nD) : W6 m ρ c (Proc.devRef .tc main_arg5) = W3 m ρ c (Proc.devRef .tc main_arg5) := (W6_of_ne m ρ c main_arg5 (by decide)).trans (k5_main_arg5 m ρ c)

/-! ## The chain -/

/-- The result array at the last boundary, as the three dense stages and the two aggregations of region 0's entry
    contents. -/
theorem result_eq (c : Dev nD) :
    W8 m ρ c (Proc.devRef .tc main_v64)
      = Cert.Gcn.logSoftmaxRows 100000 40
          (Cert.ReferenceIdeal.Glue.agg2 (F := Ideal)
            (Cert.Gcn.matProd 100000 16 40
              (Cert.Gcn.relu
                (Cert.ReferenceIdeal.Glue.agg1 (F := Ideal)
                  (Cert.Gcn.matProd 100000 512 16 (W3 m ρ c (Proc.devRef .tc main_arg0)) (W3 m ρ c (Proc.devRef .tc main_arg2)))
                  (W3 m ρ c (Proc.devRef .tc main_v3)) (W3 m ρ c (Proc.devRef .tc main_v6)) (W3 m ρ c (Proc.devRef .tc main_v29)) (W3 m ρ c (Proc.devRef .tc main_arg3))))
              (W3 m ρ c (Proc.devRef .tc main_arg4)))
            (W3 m ρ c (Proc.devRef .tc main_v3)) (W3 m ρ c (Proc.devRef .tc main_v6)) (W3 m ρ c (Proc.devRef .tc main_v29)) (W3 m ρ c (Proc.devRef .tc main_arg5))) := by
  have h30 : W4 m ρ c (Proc.devRef .tc main_v30) = Cert.Gcn.matProd 100000 512 16 (W3 m ρ c (Proc.devRef .tc main_arg0)) (W3 m ρ c (Proc.devRef .tc main_arg2)) :=
    (W4_arr m ρ c 2).trans (Cert.KernelIdeal.Region0.final (V3 m ρ) c)
  have h46 : W5 m ρ c (Proc.devRef .tc main_v46) = Cert.ReferenceIdeal.Glue.agg1 (F := Ideal) (W4 m ρ c (Proc.devRef .tc main_v30)) (W4 m ρ c (Proc.devRef .tc main_v3))
      (W4 m ρ c (Proc.devRef .tc main_v6)) (W4 m ρ c (Proc.devRef .tc main_v29)) (W4 m ρ c (Proc.devRef .tc main_arg3)) := stretch1 (W4 m ρ c)
  have h47 : W6 m ρ c (Proc.devRef .tc main_v47) = Cert.Gcn.matProd 100000 16 40 (Cert.Gcn.relu (W5 m ρ c (Proc.devRef .tc main_v46))) (W5 m ρ c (Proc.devRef .tc main_arg4)) :=
    (W6_arr m ρ c 2).trans (Cert.KernelIdeal.Region1.final (V5 m ρ) c)
  have h63 : W7 m ρ c (Proc.devRef .tc main_v63) = Cert.ReferenceIdeal.Glue.agg2 (F := Ideal) (W6 m ρ c (Proc.devRef .tc main_v47)) (W6 m ρ c (Proc.devRef .tc main_v3))
      (W6 m ρ c (Proc.devRef .tc main_v6)) (W6 m ρ c (Proc.devRef .tc main_v29)) (W6 m ρ c (Proc.devRef .tc main_arg5)) := stretch2 (W6 m ρ c)
  have h64 : W8 m ρ c (Proc.devRef .tc main_v64) = Cert.Gcn.logSoftmaxRows 100000 40 (W7 m ρ c (Proc.devRef .tc main_v63)) :=
    (W8_arr m ρ c 1).trans (Cert.KernelIdeal.Region2.final (V7 m ρ) c)
  rw [h64, h63, h47, h46, h30, k6_main_v3, k6_main_v6, k6_main_v29, k6_main_arg5, k5_main_arg4, k4_main_v3, k4_main_v6,
    k4_main_v29, k4_main_arg3]

end Cert.KernelIdeal.Mid

end
-- ==== Proof.KernelPre.lean ====
/-
  The kernel program's buffer contents when region 0 is entered, for the buffers the later stages read.

  Before its first region the program runs forty host operations in three stretches: eighteen that build the two
  index vectors (each a row of the edge list followed by the identity indices 0 … 99999), the degree of every node
  (a scatter-add of ones at the second index vector), the test "degree > 0" and the reciprocal square root of the
  degree; three (a called function) that select the reciprocal square root where the degree is positive and zero
  elsewhere; and nineteen that wrap negative indices, gather the selected value at both index vectors and multiply the
  two gathers. Each stretch is read from ANY contents of which the buffers it reads are known, so that no comparison is
  longer than a stretch; the three are then chained from the launch memory. The index vectors and the product depend
  on the edge list alone, and are the same functions of it that the reference program's operations compute. No
  operation writes an argument, so the arguments are as launched.
-/
import proofs.«105727_j40063454937538_1_alg».proof.Proof.Gen.KernelIdeal.Frame
import proofs.«105727_j40063454937538_1_alg».proof.Proof.RefRead
import proofs.«105727_j40063454937538_1_alg».proof.Proof.LibTypedRef
import Idealize.ShloMosaic.PureOps.Ideal
import Idealize.ShloMosaic.Lib.StableHlo.Run

set_option maxRecDepth 16384

noncomputable section

namespace Cert.KernelIdeal.Pre

open Idealize.ShloMosaic Idealize.ShloMosaic.TcCoe Idealize.SL.Sem Cert.KernelIdeal Cert.KernelIdeal.Gen
open Idealize.ShloMosaic.StableHlo
open Cert.ReferenceIdeal.ReadP

/-! ## The first stretch, from any contents: the index vectors, the degree test, the reciprocal square root -/

/-- The first index vector: row 0 of the edge list, then the identity indices. -/
theorem first_v3 (V : Valuation τ sig (Elt Ideal)) :
    StableHlo.after (hostOps0 (F := Ideal)) V (Proc.devRef .tc main_v3)
      = val_main_v3 (F := Ideal) (V (Proc.devRef .tc main_arg1)) := by
  dsimp only [hostOps0]
  after_results
  rfl

/-- The second index vector: row 1 of the edge list, then the identity indices. -/
theorem first_v6 (V : Valuation τ sig (Elt Ideal)) :
    StableHlo.after (hostOps0 (F := Ideal)) V (Proc.devRef .tc main_v6)
      = val_main_v6 (F := Ideal) (V (Proc.devRef .tc main_arg1)) := by
  dsimp only [hostOps0]
  after_results
  rfl

set_option maxHeartbeats 16000000 in
/-- The test "degree > 0", the degree being the scatter-add of ones at the second index vector. -/
theorem first_v12 (V : Valuation τ sig (Elt Ideal)) :
    StableHlo.after (hostOps0 (F := Ideal)) V (Proc.devRef .tc main_v12)
      = val_main_v12 (F := Ideal) (V (Proc.devRef .tc main_arg1)) := by
  dsimp only [hostOps0]
  after_results
  rfl

set_option maxHeartbeats 16000000 in
/-- The reciprocal square root of the degree. -/
theorem first_v13 (V : Valuation τ sig (Elt Ideal)) :
    StableHlo.after (hostOps0 (F := Ideal)) V (Proc.devRef .tc main_v13)
      = val_main_v13 (F := Ideal) (V (Proc.devRef .tc main_arg1)) := by
  dsimp only [hostOps0]
  after_results
  rfl

set_option maxHeartbeats 16000000 in
/-- The zero scalar the called function broadcasts. -/
theorem first_cst2 (V : Valuation τ sig (Elt Ideal)) :
    StableHlo.after (hostOps0 (F := Ideal)) V (Proc.devRef .tc main_cst_2) = val_main_cst_2 (F := Ideal) := by
  dsimp only [hostOps0]
  after_results
  rfl

/-! ## The second stretch, from any contents: the selection

The called function's operations move contents along the proof that a buffer's type is its value's type. At these
literal buffers the two types are one type, so each move is the identity. -/

theorem ofBuf_cst2 (h1 h2 h3) (v : (⟨S_, .f32⟩ : BufTy).Contents (Elt Ideal)) :
    (TRef.of (sig := sig) (T := ⟨S_, .f32⟩) main_cst_2 h1 h2 h3).ofBuf (Val := Elt Ideal) v = v := rfl
theorem ofBuf_v12 (h1 h2 h3) (v : (⟨S100000, .i1⟩ : BufTy).Contents (Elt Ideal)) :
    (TRef.of (sig := sig) (T := ⟨S100000, .i1⟩) main_v12 h1 h2 h3).ofBuf (Val := Elt Ideal) v = v := rfl
theorem ofBuf_v13 (h1 h2 h3) (v : (⟨S100000, .f32⟩ : BufTy).Contents (Elt Ideal)) :
    (TRef.of (sig := sig) (T := ⟨S100000, .f32⟩) main_v13 h1 h2 h3).ofBuf (Val := Elt Ideal) v = v := rfl
theorem toBuf_v14 (h1 h2 h3) (v : (⟨S100000, .f32⟩ : BufTy).Contents (Elt Ideal)) :
    (TRef.of (sig := sig) (T := ⟨S100000, .f32⟩) main_v14 h1 h2 h3).toBuf (Val := Elt Ideal) v = v := rfl

set_option maxHeartbeats 16000000 in
/-- The selection: the reciprocal square root where the degree is positive, the broadcast zero elsewhere — from any
    contents holding the three values it reads. -/
theorem second_v14 (V : Valuation τ sig (Elt Ideal)) (x1 : (⟨S2x3200000, .i32⟩ : BufTy).Contents (Elt Ideal))
    (h12 : V (Proc.devRef .tc main_v12) = val_main_v12 (F := Ideal) x1)
    (h13 : V (Proc.devRef .tc main_v13) = val_main_v13 (F := Ideal) x1)
    (hc : V (Proc.devRef .tc main_cst_2) = val_main_cst_2 (F := Ideal)) :
    StableHlo.after (hostOps0_1 (F := Ideal)) V (Proc.devRef .tc main_v14) = val_main_v14 (F := Ideal) x1 := by
  dsimp only [hostOps0_1]
  after_results
  simp only [Cert.LibTypedRef.ofBuf_toBuf]
  rw [h12, h13, hc, toBuf_v14, ofBuf_v12, ofBuf_v13, ofBuf_cst2]
  rfl

/-! ## The third stretch, from any contents: the product of the two gathers -/

set_option maxHeartbeats 16000000 in
/-- The product of the selected value gathered at the first index vector and at the second (negative indices wrapped
    by 100000) — from any contents holding the three values it reads. -/
theorem third_v29 (V : Valuation τ sig (Elt Ideal)) (x1 : (⟨S2x3200000, .i32⟩ : BufTy).Contents (Elt Ideal))
    (h3 : V (Proc.devRef .tc main_v3) = val_main_v3 (F := Ideal) x1)
    (h6 : V (Proc.devRef .tc main_v6) = val_main_v6 (F := Ideal) x1)
    (h14 : V (Proc.devRef .tc main_v14) = val_main_v14 (F := Ideal) x1) :
    StableHlo.after (hostOps0_2 (F := Ideal)) V (Proc.devRef .tc main_v29) = val_main_v29 (F := Ideal) x1 := by
  dsimp only [hostOps0_2]
  after_results
  rw [h3, h6, h14]
  rfl

/-! ## Buffers a stretch does not write

A buffer that no operation of a literal line writes keeps its contents over the line: the line's operations each write
one buffer, and the buffer in question is none of them (the references' inequalities are decided). -/

local macro "unwritten" l:ident : tactic =>
  `(tactic| (refine StableHlo.after_of_forall_not_mem _ _ (List.forall_iff_forall_mem.mp ?_)
             simp only [$l:ident, List.flatten_cons, List.flatten_nil, List.append_nil, List.cons_append,
               List.nil_append, List.Forall, StableHlo.nullary_writes, StableHlo.unary_writes,
               StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

theorem second_keeps_v3 (V : Valuation τ sig (Elt Ideal)) :
    StableHlo.after (hostOps0_1 (F := Ideal)) V (Proc.devRef .tc main_v3) = V (Proc.devRef .tc main_v3) := by
  unwritten hostOps0_1
theorem second_keeps_v6 (V : Valuation τ sig (Elt Ideal)) :
    StableHlo.after (hostOps0_1 (F := Ideal)) V (Proc.devRef .tc main_v6) = V (Proc.devRef .tc main_v6) := by
  unwritten hostOps0_1
theorem third_keeps_v3 (V : Valuation τ sig (Elt Ideal)) :
    StableHlo.after (hostOps0_2 (F := Ideal)) V (Proc.devRef .tc main_v3) = V (Proc.devRef .tc main_v3) := by
  unwritten hostOps0_2
theorem third_keeps_v6 (V : Valuation τ sig (Elt Ideal)) :
    StableHlo.after (hostOps0_2 (F := Ideal)) V (Proc.devRef .tc main_v6) = V (Proc.devRef .tc main_v6) := by
  unwritten hostOps0_2

/-! ## The chain from the launch memory -/

variable (m : (ℓ : Loc nD τ sig) → Buf (Elt Ideal) ℓ) (ρ : Dev nD → PrngReg)

theorem W1_v3 (c : Dev nD) : W1 m ρ c (Proc.devRef .tc main_v3)
    = val_main_v3 (F := Ideal) (m ((c : Thread nD τ).loc main_arg1)) := first_v3 (W0 m ρ c)
theorem W1_v6 (c : Dev nD) : W1 m ρ c (Proc.devRef .tc main_v6)
    = val_main_v6 (F := Ideal) (m ((c : Thread nD τ).loc main_arg1)) := first_v6 (W0 m ρ c)
theorem W1_v12 (c : Dev nD) : W1 m ρ c (Proc.devRef .tc main_v12)
    = val_main_v12 (F := Ideal) (m ((c : Thread nD τ).loc main_arg1)) := first_v12 (W0 m ρ c)
theorem W1_v13 (c : Dev nD) : W1 m ρ c (Proc.devRef .tc main_v13)
    = val_main_v13 (F := Ideal) (m ((c : Thread nD τ).loc main_arg1)) := first_v13 (W0 m ρ c)
theorem W1_cst2 (c : Dev nD) : W1 m ρ c (Proc.devRef .tc main_cst_2) = val_main_cst_2 (F := Ideal) :=
  first_cst2 (W0 m ρ c)

theorem W2_v3 (c : Dev nD) : W2 m ρ c (Proc.devRef .tc main_v3)
    = val_main_v3 (F := Ideal) (m ((c : Thread nD τ).loc main_arg1)) :=
  (second_keeps_v3 (W1 m ρ c)).trans (W1_v3 m ρ c)
theorem W2_v6 (c : Dev nD) : W2 m ρ c (Proc.devRef .tc main_v6)
    = val_main_v6 (F := Ideal) (m ((c : Thread nD τ).loc main_arg1)) :=
  (second_keeps_v6 (W1 m ρ c)).trans (W1_v6 m ρ c)
theorem W2_v14 (c : Dev nD) : W2 m ρ c (Proc.devRef .tc main_v14)
    = val_main_v14 (F := Ideal) (m ((c : Thread nD τ).loc main_arg1)) :=
  second_v14 (W1 m ρ c) _ (W1_v12 m ρ c) (W1_v13 m ρ c) (W1_cst2 m ρ c)

/-! ## At region 0's entry -/

/-- The first index vector at region 0's entry is the reference's function of the edge list. -/
theorem row_eq (c : Dev nD) : W3 m ρ c (Proc.devRef .tc main_v3)
    = val_main_v3 (F := Ideal) (m ((c : Thread nD τ).loc main_arg1)) :=
  (third_keeps_v3 (W2 m ρ c)).trans (W2_v3 m ρ c)

/-- The second index vector likewise. -/
theorem col_eq (c : Dev nD) : W3 m ρ c (Proc.devRef .tc main_v6)
    = val_main_v6 (F := Ideal) (m ((c : Thread nD τ).loc main_arg1)) :=
  (third_keeps_v6 (W2 m ρ c)).trans (W2_v6 m ρ c)

/-- The product of the two gathers likewise. -/
theorem norm_eq (c : Dev nD) : W3 m ρ c (Proc.devRef .tc main_v29)
    = val_main_v29 (F := Ideal) (m ((c : Thread nD τ).loc main_arg1)) :=
  third_v29 (W2 m ρ c) _ (W2_v3 m ρ c) (W2_v6 m ρ c) (W2_v14 m ρ c)

/-! ## The arguments are as launched -/

theorem arg0_eq (c : Dev nD) : W3 m ρ c (Proc.devRef .tc main_arg0) = m ((c : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl

theorem arg2_eq (c : Dev nD) : W3 m ρ c (Proc.devRef .tc main_arg2) = m ((c : Thread nD τ).loc main_arg2) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl

theorem arg3_eq (c : Dev nD) : W3 m ρ c (Proc.devRef .tc main_arg3) = m ((c : Thread nD τ).loc main_arg3) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl

theorem arg4_eq (c : Dev nD) : W3 m ρ c (Proc.devRef .tc main_arg4) = m ((c : Thread nD τ).loc main_arg4) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl

theorem arg5_eq (c : Dev nD) : W3 m ρ c (Proc.devRef .tc main_arg5) = m ((c : Thread nD τ).loc main_arg5) :=
  calc W3 m ρ c (Proc.devRef .tc main_arg5)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

end Cert.KernelIdeal.Pre

end
-- ==== Proof.RefDense.lean ====
/-
  The reference's three dense stages, each as a function of the stage before it.

  The reference computes on whole arrays. Read entry by entry at the ideal values:
  • its first `dot_general` is the matrix product x · W1;
  • its second `dot_general`, fed by the rectified first aggregation, is the matrix product relu(agg1) · W2;
  • its `log_softmax` is the row-wise log-softmax of the second aggregation. The reference joins −∞ into each row
    maximum once more (the `initial` of its masked maximum); a running maximum from −∞ is already above −∞, so the
    join changes nothing. Its row sum starts from the value of the zero word, which is 0.
  The gather / scale / scatter-add stages between them are not opened here.
-/
import proofs.«105727_j40063454937538_1_alg».proof.Proof.RefRead
import proofs.«105727_j40063454937538_1_alg».proof.Proof.Spec
import proofs.«105727_j40063454937538_1_alg».proof.Proof.LibMaxReduce

noncomputable section

namespace Cert.ReferenceIdeal.Dense

open Cert.ReferenceIdeal Cert.ReferenceIdeal.Gen Cert.ReferenceIdeal.ReadP
open Idealize.ShloMosaic Idealize.ShloMosaic.TcCoe Idealize.ShloMosaic.ValueIdx Cert.Gcn Cert.LibMaxReduce

/-- The first dense transform is the matrix product of its two operands. -/
theorem v30_eq (x0 : (⟨S100000x512, .f32⟩ : BufTy).Contents (Elt Ideal)) (x2 : (⟨S512x16, .f32⟩ : BufTy).Contents (Elt Ideal)) :
    val_main_v30 (F := Ideal) x0 x2 = matProd 100000 512 16 x0 x2 := by
  funext i
  obtain ⟨r, j, rfl⟩ : ∃ (r : Fin 100000) (j : Fin 16), i = ix2 r j := ⟨i 0, i 1, eq_ix2 i⟩
  rw [val_main_v30_apply, matProd_apply]
  refine Finset.sum_congr rfl fun k _ => ?_
  have el : lidx_main_v30 (ix2 r j) k = ix2 r k := funext fun a => Fin.ext (by match a with | ⟨0, _⟩ => rfl | ⟨1, _⟩ => rfl)
  have er : ridx_main_v30 (ix2 r j) k = ix2 k j := funext fun a => Fin.ext (by match a with | ⟨0, _⟩ => rfl | ⟨1, _⟩ => rfl)
  rw [el, er]

/-- The second dense transform is the matrix product of the rectified first aggregation with its weight. -/
theorem v48_eq (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) :
    val_main_v48 (F := Ideal) x0 x1 x2 x3 x4 = matProd 100000 16 40 (relu (val_main_v46 (F := Ideal) x0 x1 x2 x3)) x4 := by
  funext i
  obtain ⟨r, j, rfl⟩ : ∃ (r : Fin 100000) (j : Fin 40), i = ix2 r j := ⟨i 0, i 1, eq_ix2 i⟩
  rw [val_main_v48_apply, matProd_apply]
  refine Finset.sum_congr rfl fun k _ => ?_
  have el : lidx_main_v48 (ix2 r j) k = ix2 r k := funext fun a => Fin.ext (by match a with | ⟨0, _⟩ => rfl | ⟨1, _⟩ => rfl)
  have er : ridx_main_v48 (ix2 r j) k = ix2 k j := funext fun a => Fin.ext (by match a with | ⟨0, _⟩ => rfl | ⟨1, _⟩ => rfl)
  rw [el, er, val_main_v47_apply, val_main_call1_v0_apply, val_main_call1_cst_apply]
  rfl

/-- The row maximum the reference subtracts, read at (r, j): the running maximum of row r from −∞. -/
theorem rowMax_apply (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) (r : Fin 100000) (j : Fin 40) :
    val_main_call2_v4 (F := Ideal) x0 x1 x2 x3 x4 x5 (ix2 r j)
      = foldMax ninfW (fun k : Fin 40 => val_main_v64 (F := Ideal) x0 x1 x2 x3 x4 x5 (ix2 r k)) := by
  rw [val_main_call2_v4_apply, val_main_call2_v3_apply, val_main_call2_v2_apply, val_main_call2_v1_apply, val_main_call2_cst_0_apply]
  have e : idx_main_call2_v3 (idx_main_call2_v4 (ix2 r j)) = ix1 r := funext fun a => Fin.ext (by match a with | ⟨0, _⟩ => rfl)
  rw [e]
  unfold val_main_call2_v0
  rw [hostReduce_maximumf_lastAxis_apply (val_main_v64 (F := Ideal) x0 x1 x2 x3 x4 x5) (val_main_call2_cst (F := Ideal))
    reducesTo_S100000x40_S100000_d1 (by decide) h_S_ r]
  exact max_foldMax ninfW _

/-- Each entry's distance below its row maximum. -/
theorem shifted_apply (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) (r : Fin 100000) (j : Fin 40) :
    val_main_call2_v5 (F := Ideal) x0 x1 x2 x3 x4 x5 (ix2 r j)
      = val_main_v64 (F := Ideal) x0 x1 x2 x3 x4 x5 (ix2 r j)
        - foldMax ninfW (fun k : Fin 40 => val_main_v64 (F := Ideal) x0 x1 x2 x3 x4 x5 (ix2 r k)) := by
  rw [val_main_call2_v5_apply, rowMax_apply]
  rfl

/-- The logarithm of the row's sum of exponentials, spread over the columns. -/
theorem logSum_apply (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) (r : Fin 100000) (j : Fin 40) :
    val_main_call2_v10 (F := Ideal) x0 x1 x2 x3 x4 x5 (ix2 r j)
      = Ideal.log (∑ k : Fin 40, Ideal.exp (val_main_v64 (F := Ideal) x0 x1 x2 x3 x4 x5 (ix2 r k)
          - foldMax ninfW (fun k' : Fin 40 => val_main_v64 (F := Ideal) x0 x1 x2 x3 x4 x5 (ix2 r k')))) := by
  rw [val_main_call2_v10_apply, val_main_call2_v9_apply, val_main_call2_v8_apply]
  have e : idx_main_call2_v8 (idx_main_call2_v10 (ix2 r j)) = ix1 r := funext fun a => Fin.ext (by match a with | ⟨0, _⟩ => rfl)
  rw [e, val_main_call2_v7_apply]
  have ez : val_main_call2_cst_1 (F := Ideal) (Shape.Idx.first h_S_) = 0 := Ideal.ofBits_zero_f32
  rw [ez, zero_add]
  have hs : (∑ k : Fin 40, val_main_call2_v6 (F := Ideal) x0 x1 x2 x3 x4 x5 (idx_main_call2_v7 (ix1 r) k))
      = ∑ k : Fin 40, Ideal.exp (val_main_v64 (F := Ideal) x0 x1 x2 x3 x4 x5 (ix2 r k)
          - foldMax ninfW (fun k' : Fin 40 => val_main_v64 (F := Ideal) x0 x1 x2 x3 x4 x5 (ix2 r k'))) :=
    Finset.sum_congr rfl fun k _ => by
      have ek : idx_main_call2_v7 (ix1 r) k = ix2 r k := funext fun a => Fin.ext (by match a with | ⟨0, _⟩ => rfl | ⟨1, _⟩ => rfl)
      rw [ek, val_main_call2_v6_apply, shifted_apply]
      exact Ideal.hostUnary_exp_def _
  rw [hs]
  exact Ideal.hostUnary_log_def _

/-- The reference's result is the row-wise log-softmax of its second aggregation. -/
theorem v65_eq (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) :
    val_main_v65 (F := Ideal) x0 x1 x2 x3 x4 x5 = logSoftmaxRows 100000 40 (val_main_v64 (F := Ideal) x0 x1 x2 x3 x4 x5) := by
  funext i
  obtain ⟨r, j, rfl⟩ : ∃ (r : Fin 100000) (j : Fin 40), i = ix2 r j := ⟨i 0, i 1, eq_ix2 i⟩
  rw [val_main_v65_apply, shifted_apply, logSum_apply, logSoftmaxRows_apply]
  rfl

end Cert.ReferenceIdeal.Dense

end
-- ==== Proof.Bridge.lean ====
/-
  The kernel program's result array is the reference's result function of the kernel's own argument arrays.

  Kernel side: the result at the last boundary is log-softmax ∘ aggregation ∘ (matrix product ∘ rectifier) ∘ aggregation ∘
  matrix product of the contents region 0 is entered with, and those contents are the argument arrays themselves and
  the index vectors and edge weights the opening host operations compute from the edge list. Reference side: its result
  stage is the same composition, each dense stage read as the same index-level function. The two expressions are then
  the same term.
-/
import proofs.«105727_j40063454937538_1_alg».proof.Proof.KernelMid
import proofs.«105727_j40063454937538_1_alg».proof.Proof.KernelPre
import proofs.«105727_j40063454937538_1_alg».proof.Proof.RefDense
import proofs.«105727_j40063454937538_1_alg».proof.Proof.RefGlue

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg)

/-- The kernel's result array after the run is the reference's result stage of the kernel's argument arrays. -/
theorem kernel_value (c : Dev Cert.KernelIdeal.nD) :
    Cert.KernelIdeal.Gen.W8 m ρ c (Proc.devRef .tc Cert.KernelIdeal.main_v64)
      = Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.Mid.result_eq, Cert.KernelIdeal.Pre.row_eq, Cert.KernelIdeal.Pre.col_eq, Cert.KernelIdeal.Pre.norm_eq,
    Cert.KernelIdeal.Pre.arg0_eq, Cert.KernelIdeal.Pre.arg2_eq, Cert.KernelIdeal.Pre.arg3_eq, Cert.KernelIdeal.Pre.arg4_eq,
    Cert.KernelIdeal.Pre.arg5_eq,
    Cert.ReferenceIdeal.Dense.v65_eq, Cert.ReferenceIdeal.Glue.v64_eq, Cert.ReferenceIdeal.Dense.v48_eq,
    Cert.ReferenceIdeal.Glue.v46_eq, Cert.ReferenceIdeal.Dense.v30_eq]

end Cert.Bridge

end
-- ==== Proof.lean ====
/- The two-layer graph convolution in three Pallas kernels against its jnp reference, at the ideal values.

   Both programs compute  log_softmax( A · (relu( A · (x W1) + b1 ) W2) + b2 )  where  A · h  gathers the rows of h at the edge
   sources, scales them by the symmetric degree weights and scatter-adds them at the edge targets. They share every gather,
   scale and scatter-add as host operations, operation for operation; they differ in the three dense stages, which the kernel
   program computes block of rows by block of rows (x W1 in blocks of 2000 rows, relu(·) W2 and the log-softmax in blocks of
   5000 rows) and the reference on whole arrays. On the extended reals a change of float format is the identity and a sum is
   the same in any grouping, each dense stage depends on one row of its left operand at a time, and the reference's extra
   join of −∞ into a running maximum that started at −∞ changes nothing: so the two results are the same function of the
   arguments, for every input (finiteness is not used).
   The frames of the two kernel programs are the generated ones; the reference's frame is its run with the result dropped;
   the idealization rewrote no operation. -/
import proofs.«105727_j40063454937538_1_alg».proof.Defs
import proofs.«105727_j40063454937538_1_alg».proof.Proof.Gen.Kernel
import proofs.«105727_j40063454937538_1_alg».proof.Proof.Gen.Kernel.Skeleton
import proofs.«105727_j40063454937538_1_alg».proof.Proof.Gen.Kernel.Launch
import proofs.«105727_j40063454937538_1_alg».proof.Proof.Gen.Kernel.Points
import proofs.«105727_j40063454937538_1_alg».proof.Proof.Gen.Kernel.Frame
import proofs.«105727_j40063454937538_1_alg».proof.Proof.Gen.KernelIdeal
import proofs.«105727_j40063454937538_1_alg».proof.Proof.Gen.KernelIdeal.Skeleton
import proofs.«105727_j40063454937538_1_alg».proof.Proof.Gen.KernelIdeal.Launch
import proofs.«105727_j40063454937538_1_alg».proof.Proof.Gen.KernelIdeal.Points
import proofs.«105727_j40063454937538_1_alg».proof.Proof.Gen.KernelIdeal.Frame
import proofs.«105727_j40063454937538_1_alg».proof.Proof.Gen.ReferenceIdeal
import proofs.«105727_j40063454937538_1_alg».proof.Proof.Gen.Pre_finite_inputs
import proofs.«105727_j40063454937538_1_alg».proof.Proof.KernelRun
import proofs.«105727_j40063454937538_1_alg».proof.Proof.RefFold
import proofs.«105727_j40063454937538_1_alg».proof.Proof.Bridge
import Idealize.ShloMosaic.Adequacy
import Idealize.ShloMosaic.Init

noncomputable section

namespace Cert.Proof

open Idealize.ShloMosaic Idealize.SL.Sem Cert.Kernel

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Fold.run (F := Ideal) m ρ)

/-- From memories agreeing on the arguments both programs end with the same result array: the kernel's at the last
    boundary's contents, which is the reference's result stage of the kernel's arguments; the reference's at that stage
    of its own arguments, which are the kernel's. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.RunValue.run_result m ρ, ?_⟩
  refine (θ_run Cert.ReferenceIdeal.defs _ _).mono (fun _ h c => ⟨(h c).1.trans ?_, (h c).2⟩)
    (Cert.ReferenceIdeal.Fold.run (F := Ideal) m' ρ')
  rw [(hagree c).1, (hagree c).2.1, (hagree c).2.2.1, (hagree c).2.2.2.1, (hagree c).2.2.2.2.1, (hagree c).2.2.2.2.2]
  exact (Cert.Bridge.kernel_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
